-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x1600000 : Shape := ⟨2, ![2, 1600000]⟩
abbrev S1600000 : Shape := ⟨1, ![1600000]⟩
abbrev S512x64 : Shape := ⟨2, ![512, 64]⟩
abbrev S64 : Shape := ⟨1, ![64]⟩
abbrev S64x16 : Shape := ⟨2, ![64, 16]⟩
abbrev S16 : Shape := ⟨1, ![16]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S64x16 .f32) (main_arg6 : FVec F S16 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x16 .f32 := Host.absf main_arg5
  let main_cst_6 : FVec F S_ .f32 := constant S_ .f32 0x7F800000#32
  let main_v20 : FVec F S64x16 .f32 := broadcastInDim S64x16 ![] bcast_S_S64x16 main_cst_6
  let main_v21 : IVec S64x16 1 := cmpf .olt main_v19 main_v20
  let main_c_7 : IVec S_ 1 := constantI S_ 1 1#1
  let main_v22 : IVec S_ 1 := (fun x v => Host.reduce IntOp.andi x v reducesTo_S64x16_S_d0_1 h_S_) main_v21 main_c_7
  let main_v23 : IVec S_ 1 := andi main_v18 main_v22
  let main_v24 : FVec F S16 .f32 := Host.absf main_arg6
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  main_v28

def fn {F : FTy → Type} [FloatOps F] (main_arg0 : FVec F S100000x512 .f32) (main_arg1 : IVec S2x1600000 32) (main_arg2 : FVec F S1600000 .f32) (main_arg3 : FVec F S512x64 .f32) (main_arg4 : FVec F S64 .f32) (main_arg5 : FVec F S64x16 .f32) (main_arg6 : FVec F S16 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S512x64 .f32 := Host.absf main_arg3
  let main_cst_2 : FVec F S_ .f32 := constant S_ .f32 0x7F800000#32
  let main_v10 : FVec F S512x64 .f32 := broadcastInDim S512x64 ![] bcast_S_S512x64 main_cst_2
  let main_v11 : IVec S512x64 1 := cmpf .olt main_v9 main_v10
  let main_c_3 : IVec S_ 1 := constantI S_ 1 1#1
  let main_v12 : IVec S_ 1 := (fun x v => Host.reduce IntOp.andi x v reducesTo_S512x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_v13 main_v16
-- ==== Kernel.lean ====
abbrev S100000x512 : Shape := ⟨2, ![100000, 512]⟩
abbrev S2x1600000 : Shape := ⟨2, ![2, 1600000]⟩
abbrev S1600000 : Shape := ⟨1, ![1600000]⟩
abbrev S512x64 : Shape := ⟨2, ![512, 64]⟩
abbrev S64 : Shape := ⟨1, ![64]⟩
abbrev S64x16 : Shape := ⟨2, ![64, 16]⟩
abbrev S16 : Shape := ⟨1, ![16]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S2000x512 : Shape := ⟨2, ![2000, 512]⟩
abbrev S2000x64 : Shape := ⟨2, ![2000, 64]⟩
abbrev S1700000x64 : Shape := ⟨2, ![1700000, 64]⟩
abbrev S1x64 : Shape := ⟨2, ![1, 64]⟩
abbrev S100000x16 : Shape := ⟨2, ![100000, 16]⟩
abbrev S2000x16 : Shape := ⟨2, ![2000, 16]⟩
abbrev S1700000x16 : Shape := ⟨2, ![1700000, 16]⟩
abbrev S1x16 : Shape := ⟨2, ![1, 16]⟩
abbrev S100000x1 : Shape := ⟨2, ![100000, 1]⟩

abbrev nBuf : Space → Nat
  | .hbm => 114
  | .vmem => 10
  | .smem => 0
  | _ => 0

abbrev bufTy : (tb : Table) → Fin (tcTables nBuf tb) → BufTy
  | .hbm, ⟨0, _⟩ => ⟨S100000x512, .f32⟩
  | .hbm, ⟨1, _⟩ => ⟨S2x1600000, .i32⟩
  | .hbm, ⟨2, _⟩ => ⟨S1600000, .f32⟩
  | .hbm, ⟨3, _⟩ => ⟨S512x64, .f32⟩
  | .hbm, ⟨4, _⟩ => ⟨S64, .f32⟩
  | .hbm, ⟨5, _⟩ => ⟨S64x16, .f32⟩
  | .hbm, ⟨6, _⟩ => ⟨S16, .f32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S_, .f32⟩
  | .hbm, ⟨15, _⟩ => ⟨S100000, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000, .f32⟩
  | .hbm, ⟨32, _⟩ => ⟨S_, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S_, .i32⟩
  | .hbm, ⟨47, _⟩ => ⟨S1700000, .i32⟩
  | .hbm, ⟨48, _⟩ => ⟨S1700000, .i1⟩
  | .hbm, ⟨49, _⟩ => ⟨S_, .i32⟩
  | .hbm, ⟨50, _⟩ => ⟨S1700000, .i32⟩
  | .hbm, ⟨51, _⟩ => ⟨S1700000, .i32⟩
  | .hbm, ⟨52, _⟩ => ⟨S1700000, .i32⟩
  | .hbm, ⟨53, _⟩ => ⟨S1700000x1, .i32⟩
  | .hbm, ⟨54, _⟩ => ⟨S1700000, .f32⟩
  | .hbm, ⟨55, _⟩ => ⟨S1700000, .f32⟩
  | .hbm, ⟨56, _⟩ => ⟨S100000x64, .f32⟩
  | .hbm, ⟨57, _⟩ => ⟨S_, .i32⟩
  | .hbm, ⟨58, _⟩ => ⟨S1700000, .i32⟩
  | .hbm, ⟨59, _⟩ => ⟨S1700000, .i1⟩
  | .hbm, ⟨60, _⟩ => ⟨S_, .i32⟩
  | .hbm, ⟨61, _⟩ => ⟨S1700000, .i32⟩
  | .hbm, ⟨62, _⟩ => ⟨S1700000, .i32⟩
  | .hbm, ⟨63, _⟩ => ⟨S1700000, .i32⟩
  | .hbm, ⟨64, _⟩ => ⟨S1700000x1, .i32⟩
  | .hbm, ⟨65, _⟩ => ⟨S1700000x64, .f32⟩
  | .hbm, ⟨66, _⟩ => ⟨S1700000x1, .f32⟩
  | .hbm, ⟨67, _⟩ => ⟨S1700000x64, .f32⟩
  | .hbm, ⟨68, _⟩ => ⟨S1700000x64, .f32⟩
  | .hbm, ⟨69, _⟩ => ⟨S_, .f32⟩
  | .hbm, ⟨70, _⟩ => ⟨S100000x64, .f32⟩
  | .hbm, ⟨71, _⟩ => ⟨S1700000x1, .i32⟩
  | .hbm, ⟨72, _⟩ => ⟨S100000x64, .f32⟩
  | .hbm, ⟨73, _⟩ => ⟨S1x64, .f32⟩
  | .hbm, ⟨74, _⟩ => ⟨S100000x64, .f32⟩
  | .hbm, ⟨75, _⟩ => ⟨S100000x64, .f32⟩
  | .hbm, ⟨76, _⟩ => ⟨S_, .f32⟩
  | .hbm, ⟨77, _⟩ => ⟨S100000x64, .f32⟩
  | .hbm, ⟨78, _⟩ => ⟨S100000x64, .f32⟩
  | .hbm, ⟨79, _⟩ => ⟨S100000x16, .f32⟩
  | .hbm, ⟨80, _⟩ => ⟨S_, .i32⟩
  | .hbm, ⟨81, _⟩ => ⟨S1700000, .i32⟩
  | .hbm, ⟨82, _⟩ => ⟨S1700000, .i1⟩
  | .hbm, ⟨83, _⟩ => ⟨S_, .i32⟩
  | .hbm, ⟨84, _⟩ => ⟨S1700000, .i32⟩
  | .hbm, ⟨85, _⟩ => ⟨S1700000, .i32⟩
  | .hbm, ⟨86, _⟩ => ⟨S1700000, .i32⟩
  | .hbm, ⟨87, _⟩ => ⟨S1700000x1, .i32⟩
  | .hbm, ⟨88, _⟩ => ⟨S1700000x16, .f32⟩
  | .hbm, ⟨89, _⟩ => ⟨S1700000x1, .f32⟩
  | .hbm, ⟨90, _⟩ => ⟨S1700000x16, .f32⟩
  | .hbm, ⟨91, _⟩ => ⟨S1700000x16, .f32⟩
  | .hbm, ⟨92, _⟩ => ⟨S_, .f32⟩
  | .hbm, ⟨93, _⟩ => ⟨S100000x16, .f32⟩
  | .hbm, ⟨94, _⟩ => ⟨S1700000x1, .i32⟩
  | .hbm, ⟨95, _⟩ => ⟨S100000x16, .f32⟩
  | .hbm, ⟨96, _⟩ => ⟨S1x16, .f32⟩
  | .hbm, ⟨97, _⟩ => ⟨S100000x16, .f32⟩
  | .hbm, ⟨98, _⟩ => ⟨S100000x16, .f32⟩
  | .hbm, ⟨99, _⟩ => ⟨S_, .f32⟩
  | .hbm, ⟨100, _⟩ => ⟨S100000, .f32⟩
  | .hbm, ⟨101, _⟩ => ⟨S_, .f32⟩
  | .hbm, ⟨102, _⟩ => ⟨S100000, .f32⟩
  | .hbm, ⟨103, _⟩ => ⟨S100000, .f32⟩
  | .hbm, ⟨104, _⟩ => ⟨S100000x1, .f32⟩
  | .hbm, ⟨105, _⟩ => ⟨S100000x16, .f32⟩
  | .hbm, ⟨106, _⟩ => ⟨S100000x16, .f32⟩
  | .hbm, ⟨107, _⟩ => ⟨S100000x16, .f32⟩
  | .hbm, ⟨108, _⟩ => ⟨S_, .f32⟩
  | .hbm, ⟨109, _⟩ => ⟨S100000, .f32⟩
  | .hbm, ⟨110, _⟩ => ⟨S100000x1, .f32⟩
  | .hbm, ⟨111, _⟩ => ⟨S100000x1, .f32⟩
  | .hbm, ⟨112, _⟩ => ⟨S100000x16, .f32⟩
  | .hbm, ⟨113, _⟩ => ⟨S100000x16, .f32⟩
  | .local _ .vmem, ⟨0, _⟩ => ⟨S2000x512, .f32⟩
  | .local _ .vmem, ⟨1, _⟩ => ⟨S2000x512, .f32⟩
  | .local _ .vmem, ⟨2, _⟩ => ⟨S512x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S64x16, .f32⟩
  | .local _ .vmem, ⟨8, _⟩ => ⟨S2000x16, .f32⟩
  | .local _ .vmem, ⟨9, _⟩ => ⟨S2000x16, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_call1_v0 : Ref sig .tc := ⟨.hbm, 33, rfl⟩
abbrev main_call1_v1 : Ref sig .tc := ⟨.hbm, 34, rfl⟩
abbrev main_v18 : Ref sig .tc := ⟨.hbm, 35, rfl⟩
abbrev main_c : Ref sig .tc := ⟨.hbm, 36, rfl⟩
abbrev main_v19 : Ref sig .tc := ⟨.hbm, 37, rfl⟩
abbrev main_v20 : Ref sig .tc := ⟨.hbm, 38, rfl⟩
abbrev main_c_5 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_6 : Ref sig .tc := ⟨.hbm, 46, rfl⟩
abbrev main_v27 : Ref sig .tc := ⟨.hbm, 47, rfl⟩
abbrev main_v28 : Ref sig .tc := ⟨.hbm, 48, rfl⟩
abbrev main_c_7 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c_8 : Ref sig .tc := ⟨.hbm, 57, rfl⟩
abbrev main_v36 : Ref sig .tc := ⟨.hbm, 58, rfl⟩
abbrev main_v37 : Ref sig .tc := ⟨.hbm, 59, rfl⟩
abbrev main_c_9 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_10 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_call2_cst : Ref sig .tc := ⟨.hbm, 76, rfl⟩
abbrev main_call2_v0 : Ref sig .tc := ⟨.hbm, 77, rfl⟩
abbrev main_v52 : Ref sig .tc := ⟨.hbm, 78, rfl⟩
abbrev main_v53 : Ref sig .tc := ⟨.hbm, 79, rfl⟩
abbrev main_c_11 : Ref sig .tc := ⟨.hbm, 80, rfl⟩
abbrev main_v54 : Ref sig .tc := ⟨.hbm, 81, rfl⟩
abbrev main_v55 : Ref sig .tc := ⟨.hbm, 82, rfl⟩
abbrev main_c_12 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_13 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_call3_cst : Ref sig .tc := ⟨.hbm, 99, rfl⟩
abbrev main_call3_v0 : Ref sig .tc := ⟨.hbm, 100, rfl⟩
abbrev main_call3_cst_0 : Ref sig .tc := ⟨.hbm, 101, rfl⟩
abbrev main_call3_v1 : Ref sig .tc := ⟨.hbm, 102, rfl⟩
abbrev main_call3_v2 : Ref sig .tc := ⟨.hbm, 103, rfl⟩
abbrev main_call3_v3 : Ref sig .tc := ⟨.hbm, 104, rfl⟩
abbrev main_call3_v4 : Ref sig .tc := ⟨.hbm, 105, rfl⟩
abbrev main_call3_v5 : Ref sig .tc := ⟨.hbm, 106, rfl⟩
abbrev main_call3_v6 : Ref sig .tc := ⟨.hbm, 107, rfl⟩
abbrev main_call3_cst_1 : Ref sig .tc := ⟨.hbm, 108, rfl⟩
abbrev main_call3_v7 : Ref sig .tc := ⟨.hbm, 109, rfl⟩
abbrev main_call3_v8 : Ref sig .tc := ⟨.hbm, 110, rfl⟩
abbrev main_call3_v9 : Ref sig .tc := ⟨.hbm, 111, rfl⟩
abbrev main_call3_v10 : Ref sig .tc := ⟨.hbm, 112, rfl⟩
abbrev main_v70 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x64_S512x64_0_0 : ∀ a, (![0, 0] : Fin 2 → Nat) a + S512x64.size a ≤ S512x64.size a
  h_S512x64 : 0 < S512x64.numel
  inb_S2000x64_S2000x64_0_0 : ∀ a, (![0, 0] : Fin 2 → Nat) a + S2000x64.size a ≤ S2000x64.size a
  h_S2000x64 : 0 < S2000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S2000x64_S2000x64 : S2000x64.ShapeCasts S2000x64
  inb_S64x16_S64x16_0_0 : ∀ a, (![0, 0] : Fin 2 → Nat) a + S64x16.size a ≤ S64x16.size a
  h_S64x16 : 0 < S64x16.numel
  inb_S2000x16_S2000x16_0_0 : ∀ a, (![0, 0] : Fin 2 → Nat) a + S2000x16.size a ≤ S2000x16.size a
  h_S2000x16 : 0 < S2000x16.numel
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S100000_d1 : S100000x16.ReducesTo [1] S100000
  h_S_ : 0 < S_.numel
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S2000x512_S512x64_S2000x64_1_0_0_1_n_n_wf : DotDims.WF S2000x512 S512x64 S2000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S2000x64_S64x16_S2000x16_1_0_0_1_n_n_wf : DotDims.WF S2000x64 S64x16 S2000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S100000x64.size a
  hwx0_2 : ∀ i : grid0.Coords, EltTy.bits .f32 = 32 ∨ (Rect.block (s := S100000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x16.size a ≤ S64x16.size a
  hwx1_1 : ∀ i : grid1.Coords, EltTy.bits .f32 = 32 ∨ (Rect.block (s := S64x16) S64x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x16.size a ≤ S100000x16.size a
  hwx1_2 : ∀ i : grid1.Coords, EltTy.bits .f32 = 32 ∨ (Rect.block (s := S100000x16) S2000x16.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S2000x512_S512x64_S2000x64_1_0_0_1_n_n : DotDims S2000x512 S512x64 S2000x64 where
  lhsContracting := [1]
  rhsContracting := [0]
  lhsNonContracting := [0]
  rhsNonContracting := [1]
  lhsBatch := []
  rhsBatch := []
  wf := dot_S2000x512_S512x64_S2000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S2000x64_S64x16_S2000x16_1_0_0_1_n_n : DotDims S2000x64 S64x16 S2000x16 where
  lhsContracting := [1]
  rhsContracting := [0]
  lhsNonContracting := [0]
  rhsNonContracting := [1]
  lhsBatch := []
  rhsBatch := []
  wf := dot_S2000x64_S64x16_S2000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v52) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S64x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v53) S2000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x512 : Shape := ⟨2, ![100000, 512]⟩
abbrev S2x1600000 : Shape := ⟨2, ![2, 1600000]⟩
abbrev S1600000 : Shape := ⟨1, ![1600000]⟩
abbrev S512x64 : Shape := ⟨2, ![512, 64]⟩
abbrev S64 : Shape := ⟨1, ![64]⟩
abbrev S64x16 : Shape := ⟨2, ![64, 16]⟩
abbrev S16 : Shape := ⟨1, ![16]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x16 : Shape := ⟨2, ![100000, 16]⟩
abbrev S1700000x16 : Shape := ⟨2, ![1700000, 16]⟩
abbrev S1x16 : Shape := ⟨2, ![1, 16]⟩
abbrev S100000x1 : Shape := ⟨2, ![100000, 1]⟩

abbrev nBuf : Space → Nat
  | .hbm => 114
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x1600000, .i32⟩
  | .hbm, ⟨2, _⟩ => ⟨S1600000, .f32⟩
  | .hbm, ⟨3, _⟩ => ⟨S512x64, .f32⟩
  | .hbm, ⟨4, _⟩ => ⟨S64, .f32⟩
  | .hbm, ⟨5, _⟩ => ⟨S64x16, .f32⟩
  | .hbm, ⟨6, _⟩ => ⟨S16, .f32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S_, .f32⟩
  | .hbm, ⟨15, _⟩ => ⟨S100000, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000, .f32⟩
  | .hbm, ⟨32, _⟩ => ⟨S_, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S_, .i32⟩
  | .hbm, ⟨47, _⟩ => ⟨S1700000, .i32⟩
  | .hbm, ⟨48, _⟩ => ⟨S1700000, .i1⟩
  | .hbm, ⟨49, _⟩ => ⟨S_, .i32⟩
  | .hbm, ⟨50, _⟩ => ⟨S1700000, .i32⟩
  | .hbm, ⟨51, _⟩ => ⟨S1700000, .i32⟩
  | .hbm, ⟨52, _⟩ => ⟨S1700000, .i32⟩
  | .hbm, ⟨53, _⟩ => ⟨S1700000x1, .i32⟩
  | .hbm, ⟨54, _⟩ => ⟨S1700000, .f32⟩
  | .hbm, ⟨55, _⟩ => ⟨S1700000, .f32⟩
  | .hbm, ⟨56, _⟩ => ⟨S100000x64, .f32⟩
  | .hbm, ⟨57, _⟩ => ⟨S_, .i32⟩
  | .hbm, ⟨58, _⟩ => ⟨S1700000, .i32⟩
  | .hbm, ⟨59, _⟩ => ⟨S1700000, .i1⟩
  | .hbm, ⟨60, _⟩ => ⟨S_, .i32⟩
  | .hbm, ⟨61, _⟩ => ⟨S1700000, .i32⟩
  | .hbm, ⟨62, _⟩ => ⟨S1700000, .i32⟩
  | .hbm, ⟨63, _⟩ => ⟨S1700000, .i32⟩
  | .hbm, ⟨64, _⟩ => ⟨S1700000x1, .i32⟩
  | .hbm, ⟨65, _⟩ => ⟨S1700000x64, .f32⟩
  | .hbm, ⟨66, _⟩ => ⟨S1700000x1, .f32⟩
  | .hbm, ⟨67, _⟩ => ⟨S1700000x64, .f32⟩
  | .hbm, ⟨68, _⟩ => ⟨S1700000x64, .f32⟩
  | .hbm, ⟨69, _⟩ => ⟨S_, .f32⟩
  | .hbm, ⟨70, _⟩ => ⟨S100000x64, .f32⟩
  | .hbm, ⟨71, _⟩ => ⟨S1700000x1, .i32⟩
  | .hbm, ⟨72, _⟩ => ⟨S100000x64, .f32⟩
  | .hbm, ⟨73, _⟩ => ⟨S1x64, .f32⟩
  | .hbm, ⟨74, _⟩ => ⟨S100000x64, .f32⟩
  | .hbm, ⟨75, _⟩ => ⟨S100000x64, .f32⟩
  | .hbm, ⟨76, _⟩ => ⟨S_, .f32⟩
  | .hbm, ⟨77, _⟩ => ⟨S100000x64, .f32⟩
  | .hbm, ⟨78, _⟩ => ⟨S100000x64, .f32⟩
  | .hbm, ⟨79, _⟩ => ⟨S100000x16, .f32⟩
  | .hbm, ⟨80, _⟩ => ⟨S_, .i32⟩
  | .hbm, ⟨81, _⟩ => ⟨S1700000, .i32⟩
  | .hbm, ⟨82, _⟩ => ⟨S1700000, .i1⟩
  | .hbm, ⟨83, _⟩ => ⟨S_, .i32⟩
  | .hbm, ⟨84, _⟩ => ⟨S1700000, .i32⟩
  | .hbm, ⟨85, _⟩ => ⟨S1700000, .i32⟩
  | .hbm, ⟨86, _⟩ => ⟨S1700000, .i32⟩
  | .hbm, ⟨87, _⟩ => ⟨S1700000x1, .i32⟩
  | .hbm, ⟨88, _⟩ => ⟨S1700000x16, .f32⟩
  | .hbm, ⟨89, _⟩ => ⟨S1700000x1, .f32⟩
  | .hbm, ⟨90, _⟩ => ⟨S1700000x16, .f32⟩
  | .hbm, ⟨91, _⟩ => ⟨S1700000x16, .f32⟩
  | .hbm, ⟨92, _⟩ => ⟨S_, .f32⟩
  | .hbm, ⟨93, _⟩ => ⟨S100000x16, .f32⟩
  | .hbm, ⟨94, _⟩ => ⟨S1700000x1, .i32⟩
  | .hbm, ⟨95, _⟩ => ⟨S100000x16, .f32⟩
  | .hbm, ⟨96, _⟩ => ⟨S1x16, .f32⟩
  | .hbm, ⟨97, _⟩ => ⟨S100000x16, .f32⟩
  | .hbm, ⟨98, _⟩ => ⟨S100000x16, .f32⟩
  | .hbm, ⟨99, _⟩ => ⟨S_, .f32⟩
  | .hbm, ⟨100, _⟩ => ⟨S100000, .f32⟩
  | .hbm, ⟨101, _⟩ => ⟨S_, .f32⟩
  | .hbm, ⟨102, _⟩ => ⟨S100000, .f32⟩
  | .hbm, ⟨103, _⟩ => ⟨S100000, .f32⟩
  | .hbm, ⟨104, _⟩ => ⟨S100000x1, .f32⟩
  | .hbm, ⟨105, _⟩ => ⟨S100000x16, .f32⟩
  | .hbm, ⟨106, _⟩ => ⟨S100000x16, .f32⟩
  | .hbm, ⟨107, _⟩ => ⟨S100000x16, .f32⟩
  | .hbm, ⟨108, _⟩ => ⟨S_, .f32⟩
  | .hbm, ⟨109, _⟩ => ⟨S100000, .f32⟩
  | .hbm, ⟨110, _⟩ => ⟨S100000x1, .f32⟩
  | .hbm, ⟨111, _⟩ => ⟨S100000x1, .f32⟩
  | .hbm, ⟨112, _⟩ => ⟨S100000x16, .f32⟩
  | .hbm, ⟨113, _⟩ => ⟨S100000x16, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_call1_v0 : Ref sig .tc := ⟨.hbm, 33, rfl⟩
abbrev main_call1_v1 : Ref sig .tc := ⟨.hbm, 34, rfl⟩
abbrev main_v18 : Ref sig .tc := ⟨.hbm, 35, rfl⟩
abbrev main_c : Ref sig .tc := ⟨.hbm, 36, rfl⟩
abbrev main_v19 : Ref sig .tc := ⟨.hbm, 37, rfl⟩
abbrev main_v20 : Ref sig .tc := ⟨.hbm, 38, rfl⟩
abbrev main_c_5 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_6 : Ref sig .tc := ⟨.hbm, 46, rfl⟩
abbrev main_v27 : Ref sig .tc := ⟨.hbm, 47, rfl⟩
abbrev main_v28 : Ref sig .tc := ⟨.hbm, 48, rfl⟩
abbrev main_c_7 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c_8 : Ref sig .tc := ⟨.hbm, 57, rfl⟩
abbrev main_v36 : Ref sig .tc := ⟨.hbm, 58, rfl⟩
abbrev main_v37 : Ref sig .tc := ⟨.hbm, 59, rfl⟩
abbrev main_c_9 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_10 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_call2_cst : Ref sig .tc := ⟨.hbm, 76, rfl⟩
abbrev main_call2_v0 : Ref sig .tc := ⟨.hbm, 77, rfl⟩
abbrev main_v52 : Ref sig .tc := ⟨.hbm, 78, rfl⟩
abbrev main_v53 : Ref sig .tc := ⟨.hbm, 79, rfl⟩
abbrev main_c_11 : Ref sig .tc := ⟨.hbm, 80, rfl⟩
abbrev main_v54 : Ref sig .tc := ⟨.hbm, 81, rfl⟩
abbrev main_v55 : Ref sig .tc := ⟨.hbm, 82, rfl⟩
abbrev main_c_12 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_13 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_call3_cst : Ref sig .tc := ⟨.hbm, 99, rfl⟩
abbrev main_call3_v0 : Ref sig .tc := ⟨.hbm, 100, rfl⟩
abbrev main_call3_cst_0 : Ref sig .tc := ⟨.hbm, 101, rfl⟩
abbrev main_call3_v1 : Ref sig .tc := ⟨.hbm, 102, rfl⟩
abbrev main_call3_v2 : Ref sig .tc := ⟨.hbm, 103, rfl⟩
abbrev main_call3_v3 : Ref sig .tc := ⟨.hbm, 104, rfl⟩
abbrev main_call3_v4 : Ref sig .tc := ⟨.hbm, 105, rfl⟩
abbrev main_call3_v5 : Ref sig .tc := ⟨.hbm, 106, rfl⟩
abbrev main_call3_v6 : Ref sig .tc := ⟨.hbm, 107, rfl⟩
abbrev main_call3_cst_1 : Ref sig .tc := ⟨.hbm, 108, rfl⟩
abbrev main_call3_v7 : Ref sig .tc := ⟨.hbm, 109, rfl⟩
abbrev main_call3_v8 : Ref sig .tc := ⟨.hbm, 110, rfl⟩
abbrev main_call3_v9 : Ref sig .tc := ⟨.hbm, 111, rfl⟩
abbrev main_call3_v10 : Ref sig .tc := ⟨.hbm, 112, rfl⟩
abbrev main_v70 : Ref sig .tc := ⟨.hbm, 113, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S100000_d1 : S100000x16.ReducesTo [1] S100000
  h_S_ : 0 < S_.numel
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x512_S512x64_S100000x64_1_0_0_1_n_n_wf : DotDims.WF S100000x512 S512x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x16_S100000x16_1_0_0_1_n_n_wf : DotDims.WF S100000x64 S64x16 S100000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x512_S512x64_S100000x64_1_0_0_1_n_n : DotDims S100000x512 S512x64 S100000x64 where
  lhsContracting := [1]
  rhsContracting := [0]
  lhsNonContracting := [0]
  rhsNonContracting := [1]
  lhsBatch := []
  rhsBatch := []
  wf := dot_S100000x512_S512x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf

class Facts : Prop extends Facts₀ where

variable [Facts]
-- ==== Proof.KRun.lean ====
/-
  The kernel program's run with its result named. The program is eleven segments — five stretches of host operations,
  the first matrix product's region, two stretches, the second product's region, two stretches — and the buffer contents
  at each boundary are a fold from the launch memory. Every weakly fair execution terminates, and in every final
  state each unscoped buffer holds the last boundary's contents; in particular the result buffer holds the last
  boundary's contents at the result, and the seven argument arrays hold what they were launched with.
-/
import proofs.«160135_j52123723104303_1_alg».proof.Proof.Gen.KernelIdeal.Frame

set_option maxRecDepth 16384

noncomputable section

namespace Cert.Gcn.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates without a fault; the result buffer ends at the last
    boundary's contents and the argument arrays end as launched. -/
theorem run : θ_run defs (onTc (τ := τ) (main (F := F))) ⟨m, fun _ => 0, ρ⟩ (fun r => ∀ c : Dev nD,
      r.2.mem ((c.tc : Thread nD τ).loc main_v70) = W11 m ρ c (Proc.devRef .tc main_v70)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v70 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c)⟩)

end Cert.Gcn.KRun

end
-- ==== Proof.Stages.lean ====
/-
  The host side of a two-layer graph convolution, as pure functions of arrays. Both programs compute, from the edge
  list and the edge weights: the source and destination lists with one self loop per node appended, the weights
  with a one per self loop appended, the weighted in-degree of every node, its reciprocal square root where the degree
  is positive and zero elsewhere, and for every edge the coefficient "scale of the source, times the weight, times the
  scale of the destination". A layer takes the projected features, gathers the source row of every edge, multiplies it
  by the edge's coefficient, adds it into the destination row, and adds the bias row to every node. Between the two
  layers every entry is replaced by its maximum with zero; after the second, each row has its maximum subtracted and
  then the logarithm of the sum of the exponentials of the result.
  Each function below is one stretch of host operations read as a function of the arrays it consumes; the functions
  are stated once and both programs are read against them.
-/
import proofs.«160135_j52123723104303_1_alg».proof.KernelIdeal
import proofs.«160135_j52123723104303_1_alg».proof.Proof.Gen.KernelIdeal

noncomputable section

namespace Cert.Gcn

open Idealize.ShloMosaic Idealize.ShloMosaic.TcCoe
open Cert.KernelIdeal Cert.KernelIdeal.Facts₀ Cert.KernelIdeal.Facts

variable {F : FTy → Type} [FloatOps F]

/-- Arrays of 32-bit floats, 32-bit integers, and one-bit flags, of a given shape. -/
abbrev FA (F : FTy → Type) (S : Shape) := (⟨S, .f32⟩ : BufTy).Contents (Elt F)
abbrev IA (F : FTy → Type) (S : Shape) := (⟨S, .i32⟩ : BufTy).Contents (Elt F)
abbrev BA (F : FTy → Type) (S : Shape) := (⟨S, .i1⟩ : BufTy).Contents (Elt F)

/-- Row 0 of the edge list, then the node numbers 0 … 99999: every edge's source, then a self loop per node. -/
def srcOf (ei : IA F S2x1600000) : IA F S1700000 :=
  concatenate S1700000 0
    [⟨S1600000, shapeCast S1600000 (extractStridedSlice S1x1600000 ![0, 0] ei slices_S2x1600000_S1x1600000_0_0) shapeCasts_S1x1600000_S1600000⟩,
     ⟨S100000, iotaInDim S100000 32 0⟩] concatenates_S1600000_S100000_S1700000_d0

/-- Row 1 of the edge list, then the node numbers: every edge's destination. -/
def dstOf (ei : IA F S2x1600000) : IA F S1700000 :=
  concatenate S1700000 0
    [⟨S1600000, shapeCast S1600000 (extractStridedSlice S1x1600000 ![1, 0] ei slices_S2x1600000_S1x1600000_1_0) shapeCasts_S1x1600000_S1600000⟩,
     ⟨S100000, iotaInDim S100000 32 0⟩] concatenates_S1600000_S100000_S1700000_d0

/-- The edge weights, then a one per self loop. -/
def wOf (ew : FA F S1600000) : FA F S1700000 :=
  concatenate S1700000 0
    [⟨S1600000, ew⟩, ⟨S100000, broadcastInDim S100000 ![] bcast_S_S100000 (constant S_ .f32 0x3F800000#32)⟩]
    concatenates_S1600000_S100000_S1700000_d0

/-- The weighted in-degree: every edge's weight added into its destination node, from zero. -/
def degOf (dst : IA F S1700000) (w : FA F S1700000) : FA F S100000 :=
  Host.scatterAdd scatter_S100000_S1700000x1_S1700000_n_0_0_1
    (broadcastInDim S100000 ![] bcast_S_S100000 (constant S_ .f32 0x00000000#32))
    (broadcastInDim S1700000x1 ![0] bcast_S1700000_S1700000x1_0 dst) w

/-- "The degree is positive", node by node. -/
def posOf (deg : FA F S100000) : BA F S100000 :=
  cmpf .ogt deg (broadcastInDim S100000 ![] bcast_S_S100000 (constant S_ .f32 0x00000000#32))

/-- The node scale: the reciprocal square root of the degree where it is positive (of one elsewhere), and zero
    where it is not. -/
def scaleOf (deg : FA F S100000) : FA F S100000 :=
  select (posOf deg)
    (Host.rsqrt (select (posOf deg) deg (broadcastInDim S100000 ![] bcast_S_S100000 (id (constant S_ .f32 0x3F800000#32)))))
    (broadcastInDim S100000 ![] bcast_S_S100000 (id (constant S_ .f32 0x00000000#32)))

/-- A list of node numbers with every negative entry raised by the node count (the lookup's index convention). -/
def wrapOf (ix : IA F S1700000) : IA F S1700000 :=
  select (cmpi .slt ix (broadcastInDim S1700000 ![] bcast_S_S1700000 (constantI S_ 32 0#32)))
    (addi ix (broadcastInDim S1700000 ![] bcast_S_S1700000 (constantI S_ 32 100000#32))) ix

/-- One scale per edge, looked up at a list of node numbers. -/
def lookupOf (scale : FA F S100000) (ix : IA F S1700000) : FA F S1700000 :=
  Host.gather gather_S100000_S1700000x1_S1700000_n_0_n_n_0_1_1 scale
    (broadcastInDim S1700000x1 ![0] bcast_S1700000_S1700000x1_0 (wrapOf ix))

/-- Every edge's coefficient: the source's scale, times the weight, times the destination's scale. -/
def coefOf (src dst : IA F S1700000) (w : FA F S1700000) (scale : FA F S100000) : FA F S1700000 :=
  mulf (mulf (lookupOf scale src) w) (lookupOf scale dst)

/-- The coefficients as a function of the edge list and the edge weights. -/
def normOf (ei : IA F S2x1600000) (ew : FA F S1600000) : FA F S1700000 :=
  coefOf (srcOf ei) (dstOf ei) (wOf ew) (scaleOf (degOf (dstOf ei) (wOf ew)))

/-- The first layer's aggregation over 64 features: gather each edge's source row, scale it by the edge's coefficient,
    add it into the destination row, add the bias row. -/
def agg64 (h : FA F S100000x64) (src dst : IA F S1700000) (norm : FA F S1700000) (b : FA F S64) : FA F S100000x64 :=
  addf
    (Host.scatterAdd scatter_S100000x64_S1700000x1_S1700000x64_1_0_0_1
      (broadcastInDim S100000x64 ![] bcast_S_S100000x64 (constant S_ .f32 0x00000000#32))
      (broadcastInDim S1700000x1 ![0] bcast_S1700000_S1700000x1_0 dst)
      (mulf
        (Host.gather gather_S100000x64_S1700000x1_S1700000x64_1_0_n_n_0_1_164 h
          (broadcastInDim S1700000x1 ![0] bcast_S1700000_S1700000x1_0 (wrapOf src)))
        (broadcastInDim S1700000x64 ![0, 1] bcast_S1700000x1_S1700000x64_0_1
          (broadcastInDim S1700000x1 ![0] bcast_S1700000_S1700000x1_0 norm))))
    (broadcastInDim S100000x64 ![0, 1] bcast_S1x64_S100000x64_0_1 (broadcastInDim S1x64 ![1] bcast_S64_S1x64_1 b))

/-- Every entry replaced by its maximum with zero. -/
def reluOf (z : FA F S100000x64) : FA F S100000x64 :=
  maximumf z (broadcastInDim S100000x64 ![] bcast_S_S100000x64 (constant S_ .f32 0x00000000#32))

/-- The second layer's aggregation over 16 classes. -/
def agg16 (h : FA F S100000x16) (src dst : IA F S1700000) (norm : FA F S1700000) (b : FA F S16) : FA F S100000x16 :=
  addf
    (Host.scatterAdd scatter_S100000x16_S1700000x1_S1700000x16_1_0_0_1
      (broadcastInDim S100000x16 ![] bcast_S_S100000x16 (constant S_ .f32 0x00000000#32))
      (broadcastInDim S1700000x1 ![0] bcast_S1700000_S1700000x1_0 dst)
      (mulf
        (Host.gather gather_S100000x16_S1700000x1_S1700000x16_1_0_n_n_0_1_116 h
          (broadcastInDim S1700000x1 ![0] bcast_S1700000_S1700000x1_0 (wrapOf src)))
        (broadcastInDim S1700000x16 ![0, 1] bcast_S1700000x1_S1700000x16_0_1
          (broadcastInDim S1700000x1 ![0] bcast_S1700000_S1700000x1_0 norm))))
    (broadcastInDim S100000x16 ![0, 1] bcast_S1x16_S100000x16_0_1 (broadcastInDim S1x16 ![1] bcast_S16_S1x16_1 b))

/-- A row with its maximum (floored at minus infinity) subtracted. -/
def shiftOf (z : FA F S100000x16) : FA F S100000x16 :=
  subf z
    (broadcastInDim S100000x16 ![0, 1] bcast_S100000x1_S100000x16_0_1
      (broadcastInDim S100000x1 ![0] bcast_S100000_S100000x1_0
        (maximumf (broadcastInDim S100000 ![] bcast_S_S100000 (constant S_ .f32 0xFF800000#32))
          (Host.reduce FloatOps.maximumf z (constant S_ .f32 0xFF800000#32) reducesTo_S100000x16_S100000_d1 h_S_))))

/-- The logarithm of the softmax of every row: the shifted row minus the logarithm of the sum of its exponentials. -/
def logSoftmaxOf (z : FA F S100000x16) : FA F S100000x16 :=
  subf (shiftOf z)
    (broadcastInDim S100000x16 ![0, 1] bcast_S100000x1_S100000x16_0_1
      (Host.log
        (broadcastInDim S100000x1 ![0] bcast_S100000_S100000x1_0
          (Host.reduceAdd (Host.exp (shiftOf z)) (constant S_ .f32 0x00000000#32) reducesTo_S100000x16_S100000_d1 h_S_))))

end Cert.Gcn

end
-- ==== Proof.Net.lean ====
/-
  The whole network as one function of the seven arguments: the node features times the first weight matrix, the first
  layer (aggregate over the edges, add the bias, clamp at zero), that times the second weight matrix, the second layer
  (aggregate, add the bias, log-softmax of every row). The two matrix products are the host's general dot product
  with given dimension numbers.
-/
import proofs.«160135_j52123723104303_1_alg».proof.Proof.Stages

noncomputable section

namespace Cert.Gcn

open Idealize.ShloMosaic Idealize.ShloMosaic.TcCoe
open Cert.KernelIdeal

variable {F : FTy → Type} [FloatOps F]

/-- The network's output: 16 log-probabilities for each of the 100000 nodes. -/
def net (D1 : DotDims S100000x512 S512x64 S100000x64) (D2 : DotDims S100000x64 S64x16 S100000x16)
    (x0 : FA F S100000x512) (x1 : IA F S2x1600000) (x2 : FA F S1600000) (x3 : FA F S512x64)
    (x4 : FA F S64) (x5 : FA F S64x16) (x6 : FA F S16) : FA F S100000x16 :=
  logSoftmaxOf (agg16
    (Host.dotGeneral (F := F) (φ₁ := .f32) (φ₂ := .f32) D2 none
      (reluOf (agg64 (Host.dotGeneral (F := F) (φ₁ := .f32) (φ₂ := .f32) D1 none x0 x3)
        (srcOf x1) (dstOf x1) (normOf x1 x2) x4)) x5)
    (srcOf x1) (dstOf x1) (normOf x1 x2) x6)

end Cert.Gcn

end
-- ==== Proof.LibDot.lean ====
/-
  A plain matrix product read at an entry. For dimension numbers that contract the left operand's columns against the
  right operand's rows, with no batch axis, the contraction sum at row `a` and column `b` is the textbook
  sum over `k` of `l (a, k) * r (k, b)`, both for the accumulate-into-zero product of the matrix unit and for
  the host's general dot product, at the exact extended-real instance.
-/
import Idealize.ShloMosaic.Lib.ValueIdx
import Idealize.ShloMosaic.PureOps.Ideal.Laws

noncomputable section

open scoped BigOperators

namespace Cert.LibDot

open Idealize.ShloMosaic Idealize.ShloMosaic.ValueIdx

/-- The six axis lists of a rows-by-columns product. -/
structure IsPlain {M K N : Nat} (D : DotDims ⟨2, ![M, K]⟩ ⟨2, ![K, N]⟩ ⟨2, ![M, N]⟩) : Prop where
  lc : D.lhsContracting = [1]
  rc : D.rhsContracting = [0]
  ln : D.lhsNonContracting = [0]
  rn : D.rhsNonContracting = [1]
  lb : D.lhsBatch = []
  rb : D.rhsBatch = []

variable {M K N : Nat} (D : DotDims ⟨2, ![M, K]⟩ ⟨2, ![K, N]⟩ ⟨2, ![M, N]⟩) (hD : IsPlain D)

include hD in
theorem contr_rank : D.contr.rank = 1 := by rw [D.rank_contr, hD.lc]; rfl

include hD in
theorem contr_size : D.contr.size ⟨0, by rw [contr_rank D hD]; exact Nat.one_pos⟩ = K := by
  have h := D.size_contr 0 (by rw [hD.lc]; exact Nat.one_pos)
  rw [h]
  simp only [hD.lc]
  rfl

include hD in
/-- The left operand is read at row `a` of the result and at the contraction coordinate. -/
theorem lhs0 (j : (⟨2, ![M, N]⟩ : Shape).Idx) (q : D.contr.Idx) : (D.lhsIdx j q 0).val = (j 0).val := by
  unfold DotDims.lhsIdx
  rw [dif_neg (by rw [hD.lb]; exact List.not_mem_nil), dif_pos (by rw [hD.ln]; exact List.mem_singleton.mpr rfl)]
  simp only [Fin.val_cast]
  have key : ∀ (p p' : Nat) (hp : p < 2) (hp' : p' < 2), p = p' → (j ⟨p, hp⟩).val = (j ⟨p', hp'⟩).val :=
    fun p p' hp hp' h => by subst h; rfl
  exact key _ _ _ _ (by simp [hD.lb, hD.ln])

include hD in
theorem rhs1 (j : (⟨2, ![M, N]⟩ : Shape).Idx) (q : D.contr.Idx) : (D.rhsIdx j q 1).val = (j 1).val := by
  unfold DotDims.rhsIdx
  rw [dif_neg (by rw [hD.rb]; exact List.not_mem_nil), dif_pos (by rw [hD.rn]; exact List.mem_singleton.mpr rfl)]
  simp only [Fin.val_cast]
  have key : ∀ (p p' : Nat) (hp : p < 2) (hp' : p' < 2), p = p' → (j ⟨p, hp⟩).val = (j ⟨p', hp'⟩).val :=
    fun p p' hp hp' h => by subst h; rfl
  exact key _ _ _ _ (by simp [hD.lb, hD.ln, hD.rn])

include hD in
/-- The contraction sum at (a, b) is the sum over `k` of the row entry times the column entry. -/
theorem plain_sum (l : (⟨2, ![M, K]⟩ : Shape).Idx → EReal) (r : (⟨2, ![K, N]⟩ : Shape).Idx → EReal) (a : Fin M) (b : Fin N) :
    ∑ q : D.contr.Idx, l (D.lhsIdx (ix2 a b) q) * r (D.rhsIdx (ix2 a b) q) = ∑ k : Fin K, l (ix2 a k) * r (ix2 k b) := by
  rw [← Equiv.sum_comp (contrEquiv1 D K (contr_rank D hD) (contr_size D hD)).symm]
  refine Finset.sum_congr rfl fun k _ => ?_
  have hk := contrEquiv1_symm_val D K (contr_rank D hD) (contr_size D hD) k
  have el : D.lhsIdx (ix2 a b) ((contrEquiv1 D K (contr_rank D hD) (contr_size D hD)).symm k) = ix2 a k :=
    funext fun x => Fin.ext (by
      match x with
      | ⟨0, _⟩ => exact lhs0 D hD _ _
      | ⟨1, _⟩ => exact (D.lhsIdx_val_of_single hD.lc _ _).trans hk)
  have er : D.rhsIdx (ix2 a b) ((contrEquiv1 D K (contr_rank D hD) (contr_size D hD)).symm k) = ix2 k b :=
    funext fun x => Fin.ext (by
      match x with
      | ⟨0, _⟩ => exact (D.rhsIdx_val_of_single hD.rc _ _).trans hk
      | ⟨1, _⟩ => exact rhs1 D hD _ _)
  rw [el, er]

include hD in
/-- The matrix unit's product into a zero accumulator, at an entry. -/
theorem matmul_zero_apply {φ₁ φ₂ : FTy} (prec : Option ContractPrecision)
    (l : FVec Ideal ⟨2, ![M, K]⟩ φ₁) (r : FVec Ideal ⟨2, ![K, N]⟩ φ₂) (a : Fin M) (b : Fin N) :
    FloatOps.matmul D prec l r (constant ⟨2, ![M, N]⟩ .f32 0x00000000#32) (ix2 a b) = ∑ k : Fin K, l (ix2 a k) * r (ix2 k b) :=
  (Ideal.matmul_constant_zero_apply D prec l r (ix2 a b)).trans (plain_sum D hD l r a b)

include hD in
/-- The host's general dot product, at an entry. -/
theorem dotGeneral_apply {φ₁ φ₂ : FTy} (prec : Option ContractPrecision) (sched : HostSchedule)
    (l : FVec Ideal ⟨2, ![M, K]⟩ φ₁) (r : FVec Ideal ⟨2, ![K, N]⟩ φ₂) (a : Fin M) (b : Fin N) :
    FloatOps.dotGeneral D prec sched l r (ix2 a b) = ∑ k : Fin K, l (ix2 a k) * r (ix2 k b) :=
  (Ideal.dotGeneral_apply D prec sched l r (ix2 a b)).trans (plain_sum D hD l r a b)

end Cert.LibDot

end
-- ==== Proof.LibTileDot.lean ====
/-
  A matrix product computed tile by tile along the rows. An entry of a product depends on one row of the left factor
  and one column of the right factor, so if a tile's row agrees with a row of the whole left factor, and the tile's
  right factor agrees with the whole right factor along a column, then the tile's entry in that row and column
  is the whole product's entry. The tile's product is the matrix unit's product into a zero accumulator of operands
  narrowed to a shorter float format (the identity on extended reals); the whole product is the host's general dot
  product. Both are the textbook sum over the contracted coordinate.
-/
import proofs.«160135_j52123723104303_1_alg».proof.Proof.LibDot
import Idealize.ShloMosaic.Lib.ValueIdx
import Idealize.ShloMosaic.PureOps.Ideal.Laws

noncomputable section

open scoped BigOperators

namespace Cert.LibTileDot

open Idealize.ShloMosaic Idealize.ShloMosaic.ValueIdx

variable {B M K N : ℕ}

/-- Entry `j` of a row tile's product is entry `i` of the whole product when row `j 0` of the tile is row `i 0` of the
    whole left factor and column `j 1` of the tile's right factor is column `i 1` of the whole right factor. -/
theorem tile_entry (Dk : DotDims ⟨2, ![B, K]⟩ ⟨2, ![K, N]⟩ ⟨2, ![B, N]⟩) (hk : Cert.LibDot.IsPlain Dk)
    (D : DotDims ⟨2, ![M, K]⟩ ⟨2, ![K, N]⟩ ⟨2, ![M, N]⟩) (hD : Cert.LibDot.IsPlain D)
    (A : FVec Ideal ⟨2, ![M, K]⟩ .f32) (W : FVec Ideal ⟨2, ![K, N]⟩ .f32)
    (x0 : FVec Ideal ⟨2, ![B, K]⟩ .f32) (x1 : FVec Ideal ⟨2, ![K, N]⟩ .f32)
    (h0 : FTy.bf16.bits < FTy.f32.bits) (h1 : FTy.bf16.bits < FTy.f32.bits)
    (j : (⟨2, ![B, N]⟩ : Shape).Idx) (i : (⟨2, ![M, N]⟩ : Shape).Idx)
    (hrow : ∀ k : Fin K, x0 (ix2 (j 0) k) = A (ix2 (i 0) k))
    (hcol : ∀ k : Fin K, x1 (ix2 k (j 1)) = W (ix2 k (i 1))) :
    matmul Dk none (truncf .bf16 x0 h0) (truncf .bf16 x1 h1) (constant ⟨2, ![B, N]⟩ .f32 0x00000000#32) j
      = Host.dotGeneral D none A W i := by
  rw [eq_ix2 j, eq_ix2 i]
  refine (Cert.LibDot.matmul_zero_apply Dk hk none _ _ (j 0) (j 1)).trans ?_
  refine Eq.trans ?_ (Cert.LibDot.dotGeneral_apply D hD none _ A W (i 0) (i 1)).symm
  exact Finset.sum_congr rfl fun k _ => by
    show x0 (ix2 (j 0) k) * x1 (ix2 k (j 1)) = A (ix2 (i 0) k) * W (ix2 k (i 1))
    rw [hrow k, hcol k]

end Cert.LibTileDot

end
-- ==== Proof.Tile0.lean ====
/-
  Region 0 of the kernel's program: a matrix product computed fifty row tiles at a time. Grid point t takes rows
  2000 t … 2000 t + 1999 of the left array and the whole right array, narrows both to a shorter float format (the
  identity on extended reals) and writes their product into the same rows of the output array.
  An entry of a product depends on one row of the left factor and one column of the right factor, so every tile's
  block is the restriction to its rows of ONE whole-array product; the fifty blocks tile the output array, so after
  the region the output array holds that product, whatever contents the region was entered with.
-/
import proofs.«160135_j52123723104303_1_alg».proof.Proof.Gen.KernelIdeal.Frame
import proofs.«160135_j52123723104303_1_alg».proof.Proof.LibTileDot
import Idealize.ShloMosaic.Lib.Pipeline.Value
import Idealize.ShloMosaic.Lib.ValueIdx
import Idealize.ShloMosaic.Lib.ValueLayout

set_option maxRecDepth 16384

noncomputable section

namespace Cert.Gcn.Tile0

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem zero2 : (![0, 0] : Fin 2 → Nat) = fun _ => 0 := funext fun a => by fin_cases a <;> rfl

/-- The tile's dimension numbers contract the left columns against the right rows, with no batch axis. -/
theorem plainTile : Cert.LibDot.IsPlain (M := 2000) (K := 512) (N := 64) dot_S2000x512_S512x64_S2000x64_1_0_0_1_n_n :=
  ⟨rfl, rfl, rfl, rfl, rfl, rfl⟩

/-- The printed index maps over the grid: point t's left block and output block are block row t, the right
    block is the whole array. -/
theorem blockIndex : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- One tile's payload at an entry, over variables: the whole product's entry, when the tile's row is the whole
    left array's row and the right factors agree along the column. -/
theorem payload_entry {M : ℕ} (D : DotDims ⟨2, ![M, 512]⟩ ⟨2, ![512, 64]⟩ ⟨2, ![M, 64]⟩) (hD : Cert.LibDot.IsPlain D)
    (A : FVec Ideal ⟨2, ![M, 512]⟩ .f32) (W : FVec Ideal ⟨2, ![512, 64]⟩ .f32)
    (x0 : Vec Ideal S2000x512 .f32) (x1 : Vec Ideal S512x64 .f32) (j : S2000x64.Idx) (i : (⟨2, ![M, 64]⟩ : Shape).Idx)
    (hrow : ∀ k : Fin 512, x0 (ix2 (j 0) k) = A (ix2 (i 0) k))
    (hcol : ∀ k : Fin 512, x1 (ix2 k (j 1)) = W (ix2 k (i 1))) :
    k0_pay1 (F := Ideal) x0 x1 j = Host.dotGeneral (F := Ideal) (φ₁ := .f32) (φ₂ := .f32) D none A W i := by
  unfold k0_pay1
  exact Cert.LibTileDot.tile_entry dot_S2000x512_S512x64_S2000x64_1_0_0_1_n_n plainTile D hD A W x0 x1 bitsLt_bf16_f32 bitsLt_bf16_f32 j i hrow hcol

variable (D : DotDims S100000x512 S512x64 S100000x64) (hD : Cert.LibDot.IsPlain (M := 100000) (K := 512) (N := 64) D)

include hD in
/-- What point t writes back is its block of the whole product of the two arrays as the region finds them. -/
theorem flushed_eq (c : Dev nD) (t : Fin cfg0.N) :
    (dat0 V c).flushed 2 t
      = ((cfg0.win 2).blk t).view.read (Elt Ideal) (Host.dotGeneral (F := Ideal) (φ₁ := .f32) (φ₂ := .f32) D none (V c main_arg0) (V c main_arg3)) := by
  show (cfg0.win 2).cut (grid0.coords t) ((dat0 V c).after 2 t) = _
  rw [after0_2]
  unfold out0_2
  rw [View.canon_unit_zero zero2]
  simp only [View.ld_unit_zero (S := S2000x512) zero2, View.ld_unit_zero (S := S512x64) zero2]
  obtain ⟨e0, e1, e2, e3, e4, e5⟩ := blockIndex t
  funext j
  show k0_pay1 (F := Ideal) (iblk0 V c 0 t) (iblk0 V c 1 t) j
    = Host.dotGeneral (F := Ideal) (φ₁ := .f32) (φ₂ := .f32) D none (V c main_arg0) (V c main_arg3) (((cfg0.win 2).blk t).view.emb j)
  refine payload_entry D hD (V c main_arg0) (V c main_arg3) (iblk0 V c 0 t) (iblk0 V c 1 t) j
    (((cfg0.win 2).blk t).view.emb j) (fun k => ?_) (fun k => ?_)
  · show V c main_arg0 (((cfg0.win 0).blk t).view.emb (ix2 (j 0) k)) = V c main_arg0 (ix2 ((((cfg0.win 2).blk t).view.emb j) 0) k)
    refine congrArg (V c main_arg0) (funext fun a => Fin.ext ?_)
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 512 + 1 * k.val = k.val; omega
  · show V c main_arg3 (((cfg0.win 1).blk t).view.emb (ix2 k (j 1))) = V c main_arg3 (ix2 k ((((cfg0.win 2).blk t).view.emb j) 1))
    refine congrArg (V c main_arg3) (funext fun a => Fin.ext ?_)
    match a with
    | ⟨0, _⟩ => show win0_1.index t (0 : Fin 2) * 512 + 1 * k.val = k.val; omega
    | ⟨1, _⟩ => show win0_1.index t (1 : Fin 2) * 64 + 1 * (j 1).val = win0_2.index t (1 : Fin 2) * 64 + 1 * (j 1).val; omega

/-- An index of the output array is in point t's block iff each coordinate is in the block's range on its axis. -/
theorem mem_block (t : Fin cfg0.N) (i : S100000x64.Idx) :
    i ∈ ((cfg0.win 2).blk t).view.set ↔ ∀ a : Fin 2, win0_2.index t a * S2000x64.size a ≤ (i a).val ∧ (i a).val < win0_2.index t a * S2000x64.size a + S2000x64.size a := by
  show i ∈ ((View.whole main_v35).slice (win0_2.rect t)).set ↔ _
  rw [View.set_slice_whole, Rect.mem_set_unit]
  exact Iff.rfl

/-- Every row of the output array is in the block of the point numbered by the row's tile. -/
theorem covered (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 50 := N_0
  let t : Fin cfg0.N := ⟨(i 0).val / 2000, by rw [hN]; omega⟩
  obtain ⟨e0, e1, e2, e3, e4, e5⟩ := blockIndex t
  have e4' : win0_2.index t (0 : Fin 2) = (i 0).val / 2000 := e4
  refine ⟨t, flush0_2 t, ?_⟩
  rw [mem_block]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 64 ≤ (i 1).val ∧ (i 1).val < win0_2.index t (1 : Fin 2) * 64 + 64; omega

include hD in
/-- After the region its output array holds the whole product of the two input arrays as the region found them. -/
theorem whole (c : Dev nD) :
    (dat0 V c).arrAt 2 cfg0.N = Host.dotGeneral (F := Ideal) (φ₁ := .f32) (φ₂ := .f32) D none (V c main_arg0) (V c main_arg3) :=
  (dat0 V c).arrAt_eq_of_cover 2 (Host.dotGeneral (F := Ideal) (φ₁ := .f32) (φ₂ := .f32) D none (V c main_arg0) (V c main_arg3))
    (fun t _ => flushed_eq V D hD c t) covered

end Cert.Gcn.Tile0

end
-- ==== Proof.Tile1.lean ====
/-
  Region 1 of the kernel's program: a matrix product computed fifty row tiles at a time. Grid point t takes rows
  2000 t … 2000 t + 1999 of the left array and the whole right array, narrows both to a shorter float format (the
  identity on extended reals), after a reshape to the same shape (the identity), and writes their product into the same rows of the output array.
  An entry of a product depends on one row of the left factor and one column of the right factor, so every tile's
  block is the restriction to its rows of ONE whole-array product; the fifty blocks tile the output array, so after
  the region the output array holds that product, whatever contents the region was entered with.
-/
import proofs.«160135_j52123723104303_1_alg».proof.Proof.Gen.KernelIdeal.Frame
import proofs.«160135_j52123723104303_1_alg».proof.Proof.LibTileDot
import Idealize.ShloMosaic.Lib.Pipeline.Value
import Idealize.ShloMosaic.Lib.ValueIdx
import Idealize.ShloMosaic.Lib.ValueLayout

set_option maxRecDepth 16384

noncomputable section

namespace Cert.Gcn.Tile1

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem zero2 : (![0, 0] : Fin 2 → Nat) = fun _ => 0 := funext fun a => by fin_cases a <;> rfl

/-- The tile's dimension numbers contract the left columns against the right rows, with no batch axis. -/
theorem plainTile : Cert.LibDot.IsPlain (M := 2000) (K := 64) (N := 16) dot_S2000x64_S64x16_S2000x16_1_0_0_1_n_n :=
  ⟨rfl, rfl, rfl, rfl, rfl, rfl⟩

/-- The printed index maps over the grid: point t's left block and output block are block row t, the right
    block is the whole array. -/
theorem blockIndex : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- One tile's payload at an entry, over variables: the whole product's entry, when the tile's row is the whole
    left array's row and the right factors agree along the column. -/
theorem payload_entry {M : ℕ} (D : DotDims ⟨2, ![M, 64]⟩ ⟨2, ![64, 16]⟩ ⟨2, ![M, 16]⟩) (hD : Cert.LibDot.IsPlain D)
    (A : FVec Ideal ⟨2, ![M, 64]⟩ .f32) (W : FVec Ideal ⟨2, ![64, 16]⟩ .f32)
    (x0 : Vec Ideal S2000x64 .f32) (x1 : Vec Ideal S64x16 .f32) (j : S2000x16.Idx) (i : (⟨2, ![M, 16]⟩ : Shape).Idx)
    (hrow : ∀ k : Fin 64, x0 (ix2 (j 0) k) = A (ix2 (i 0) k))
    (hcol : ∀ k : Fin 64, x1 (ix2 k (j 1)) = W (ix2 k (i 1))) :
    k1_pay1 (F := Ideal) x0 x1 j = Host.dotGeneral (F := Ideal) (φ₁ := .f32) (φ₂ := .f32) D none A W i := by
  unfold k1_pay1
  rw [shapeCast_self]
  exact Cert.LibTileDot.tile_entry dot_S2000x64_S64x16_S2000x16_1_0_0_1_n_n plainTile D hD A W x0 x1 bitsLt_bf16_f32 bitsLt_bf16_f32 j i hrow hcol

variable (D : DotDims S100000x64 S64x16 S100000x16) (hD : Cert.LibDot.IsPlain (M := 100000) (K := 64) (N := 16) D)

include hD in
/-- What point t writes back is its block of the whole product of the two arrays as the region finds them. -/
theorem flushed_eq (c : Dev nD) (t : Fin cfg1.N) :
    (dat1 V c).flushed 2 t
      = ((cfg1.win 2).blk t).view.read (Elt Ideal) (Host.dotGeneral (F := Ideal) (φ₁ := .f32) (φ₂ := .f32) D none (V c main_v52) (V c main_arg5)) := by
  show (cfg1.win 2).cut (grid1.coords t) ((dat1 V c).after 2 t) = _
  rw [after1_2]
  unfold out1_2
  rw [View.canon_unit_zero zero2]
  simp only [View.ld_unit_zero (S := S2000x64) zero2, View.ld_unit_zero (S := S64x16) zero2]
  obtain ⟨e0, e1, e2, e3, e4, e5⟩ := blockIndex t
  funext j
  show k1_pay1 (F := Ideal) (iblk1 V c 0 t) (iblk1 V c 1 t) j
    = Host.dotGeneral (F := Ideal) (φ₁ := .f32) (φ₂ := .f32) D none (V c main_v52) (V c main_arg5) (((cfg1.win 2).blk t).view.emb j)
  refine payload_entry D hD (V c main_v52) (V c main_arg5) (iblk1 V c 0 t) (iblk1 V c 1 t) j
    (((cfg1.win 2).blk t).view.emb j) (fun k => ?_) (fun k => ?_)
  · show V c main_v52 (((cfg1.win 0).blk t).view.emb (ix2 (j 0) k)) = V c main_v52 (ix2 ((((cfg1.win 2).blk t).view.emb j) 0) k)
    refine congrArg (V c main_v52) (funext fun a => Fin.ext ?_)
    match a with
    | ⟨0, _⟩ => show win1_0.index t (0 : Fin 2) * 2000 + 1 * (j 0).val = win1_2.index t (0 : Fin 2) * 2000 + 1 * (j 0).val; omega
    | ⟨1, _⟩ => show win1_0.index t (1 : Fin 2) * 64 + 1 * k.val = k.val; omega
  · show V c main_arg5 (((cfg1.win 1).blk t).view.emb (ix2 k (j 1))) = V c main_arg5 (ix2 k ((((cfg1.win 2).blk t).view.emb j) 1))
    refine congrArg (V c main_arg5) (funext fun a => Fin.ext ?_)
    match a with
    | ⟨0, _⟩ => show win1_1.index t (0 : Fin 2) * 64 + 1 * k.val = k.val; omega
    | ⟨1, _⟩ => show win1_1.index t (1 : Fin 2) * 16 + 1 * (j 1).val = win1_2.index t (1 : Fin 2) * 16 + 1 * (j 1).val; omega

/-- An index of the output array is in point t's block iff each coordinate is in the block's range on its axis. -/
theorem mem_block (t : Fin cfg1.N) (i : S100000x16.Idx) :
    i ∈ ((cfg1.win 2).blk t).view.set ↔ ∀ a : Fin 2, win1_2.index t a * S2000x16.size a ≤ (i a).val ∧ (i a).val < win1_2.index t a * S2000x16.size a + S2000x16.size a := by
  show i ∈ ((View.whole main_v53).slice (win1_2.rect t)).set ↔ _
  rw [View.set_slice_whole, Rect.mem_set_unit]
  exact Iff.rfl

/-- Every row of the output array is in the block of the point numbered by the row's tile. -/
theorem covered (i : S100000x16.Idx) : ∃ t : Fin cfg1.N, (cfg1.win 2).flush t = true ∧ i ∈ ((cfg1.win 2).blk t).view.set := by
  have hi0 : (i 0).val < 100000 := (i 0).isLt
  have hi1 : (i 1).val < 16 := (i 1).isLt
  have hN : cfg1.N = 50 := N_1
  let t : Fin cfg1.N := ⟨(i 0).val / 2000, by rw [hN]; omega⟩
  obtain ⟨e0, e1, e2, e3, e4, e5⟩ := blockIndex t
  have e4' : win1_2.index t (0 : Fin 2) = (i 0).val / 2000 := e4
  refine ⟨t, flush1_2 t, ?_⟩
  rw [mem_block]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 16 ≤ (i 1).val ∧ (i 1).val < win1_2.index t (1 : Fin 2) * 16 + 16; omega

include hD in
/-- After the region its output array holds the whole product of the two input arrays as the region found them. -/
theorem whole (c : Dev nD) :
    (dat1 V c).arrAt 2 cfg1.N = Host.dotGeneral (F := Ideal) (φ₁ := .f32) (φ₂ := .f32) D none (V c main_v52) (V c main_arg5) :=
  (dat1 V c).arrAt_eq_of_cover 2 (Host.dotGeneral (F := Ideal) (φ₁ := .f32) (φ₂ := .f32) D none (V c main_v52) (V c main_arg5))
    (fun t _ => flushed_eq V D hD c t) covered

end Cert.Gcn.Tile1

end
-- ==== Proof.LibCallBuf.lean ====
/-
  A value handed to a called function's typed buffer and read back from it is the value: the two transports along the
  buffer's type equation cancel.
-/
import Idealize.ShloMosaic.Lib.StableHlo

noncomputable section

namespace Cert.LibCallBuf

open Idealize.ShloMosaic Idealize.ShloMosaic.StableHlo

/-- Written into a typed reference's buffer and read back, contents are unchanged. -/
theorem ofBuf_toBuf {sig : RefSig} {Val : EltTy → Type} {T : BufTy} (x : TRef sig T) (v : T.Contents Val) :
    x.ofBuf (x.toBuf v) = v := by
  show cast _ (cast _ v) = v
  rw [cast_cast]
  exact cast_eq _ _

end Cert.LibCallBuf

end
-- ==== Proof.KHost.lean ====
/-
  The kernel program's host stretches read as the stage functions, and the whole program's result as one function of
  its seven arguments. Before the first region the host computes the source list, the destination list and the edge
  coefficients; the first region leaves the product of the node features with the first weight matrix; the host
  aggregates it over the edges, adds the bias and clamps at zero; the second region leaves the product of that with
  the second weight matrix; the host aggregates again, adds the second bias and takes the log-softmax of every row.
  A region changes only its output array, and a host stretch only the buffers of its own lines, so each array a later
  stage reads is the one an earlier stage left.
-/
import proofs.«160135_j52123723104303_1_alg».proof.Proof.Gen.KernelIdeal.Frame
import proofs.«160135_j52123723104303_1_alg».proof.Proof.Stages
import proofs.«160135_j52123723104303_1_alg».proof.Proof.Net
import proofs.«160135_j52123723104303_1_alg».proof.Proof.Tile0
import proofs.«160135_j52123723104303_1_alg».proof.Proof.Tile1
import proofs.«160135_j52123723104303_1_alg».proof.Proof.LibCallBuf
import Idealize.ShloMosaic.Lib.StableHlo.Run

set_option maxRecDepth 16384

noncomputable section

namespace Cert.Gcn.KHost

open Idealize.ShloMosaic Idealize.ShloMosaic.TcCoe Idealize.ShloMosaic.StableHlo Idealize.SL.Sem
open Cert.KernelIdeal Cert.KernelIdeal.Gen Cert.Gcn

/-! ## The three host stretches at any contents -/

section Stretches

variable {F : FTy → Type} [FloatOps F] (V : Valuation τ sig (Elt F))

/-- The contents after the host lines that come before the first region. -/
abbrev pre : Valuation τ sig (Elt F) :=
  after hostOps0_4 (after hostOps0_3 (after hostOps0_2 (after hostOps0_1 (after hostOps0 V))))
/-- The contents after the host lines between the two regions. -/
abbrev mid : Valuation τ sig (Elt F) := after hostOps1_1 (after hostOps1 V)
/-- The contents after the host lines that follow the second region. -/
abbrev fin : Valuation τ sig (Elt F) := after hostOps2_1 (after hostOps2 V)

theorem pre_src : pre V (Proc.devRef .tc main_v3) = srcOf (V (Proc.devRef .tc main_arg1)) := by
  after_results_simp <;> rfl
theorem pre_dst : pre V (Proc.devRef .tc main_v6) = dstOf (V (Proc.devRef .tc main_arg1)) := by
  after_results_simp <;> rfl
theorem pre_norm : pre V (Proc.devRef .tc main_v34)
    = normOf (V (Proc.devRef .tc main_arg1)) (V (Proc.devRef .tc main_arg2)) := by
  after_results_simp
  simp only [Cert.LibCallBuf.ofBuf_toBuf]
  rfl
theorem pre_keep_main_arg0 : pre V (Proc.devRef .tc main_arg0) = V (Proc.devRef .tc main_arg0) := by
  after_results_simp <;> rfl
theorem pre_keep_main_arg3 : pre V (Proc.devRef .tc main_arg3) = V (Proc.devRef .tc main_arg3) := by
  after_results_simp <;> rfl
theorem pre_keep_main_arg4 : pre V (Proc.devRef .tc main_arg4) = V (Proc.devRef .tc main_arg4) := by
  after_results_simp <;> rfl
theorem pre_keep_main_arg5 : pre V (Proc.devRef .tc main_arg5) = V (Proc.devRef .tc main_arg5) := by
  after_results_simp <;> rfl
theorem pre_keep_main_arg6 : pre V (Proc.devRef .tc main_arg6) = V (Proc.devRef .tc main_arg6) := by
  after_results_simp <;> rfl

theorem mid_relu : mid V (Proc.devRef .tc main_v52)
    = reluOf (agg64 (V (Proc.devRef .tc main_v35)) (V (Proc.devRef .tc main_v3)) (V (Proc.devRef .tc main_v6))
        (V (Proc.devRef .tc main_v34)) (V (Proc.devRef .tc main_arg4))) := by
  after_results_simp
  simp only [Cert.LibCallBuf.ofBuf_toBuf]
  rfl
theorem mid_keep_main_v3 : mid V (Proc.devRef .tc main_v3) = V (Proc.devRef .tc main_v3) := by
  after_results_simp <;> rfl
theorem mid_keep_main_v6 : mid V (Proc.devRef .tc main_v6) = V (Proc.devRef .tc main_v6) := by
  after_results_simp <;> rfl
theorem mid_keep_main_v34 : mid V (Proc.devRef .tc main_v34) = V (Proc.devRef .tc main_v34) := by
  after_results_simp <;> rfl
theorem mid_keep_main_arg5 : mid V (Proc.devRef .tc main_arg5) = V (Proc.devRef .tc main_arg5) := by
  after_results_simp <;> rfl
theorem mid_keep_main_arg6 : mid V (Proc.devRef .tc main_arg6) = V (Proc.devRef .tc main_arg6) := by
  after_results_simp <;> rfl

theorem fin_logSoftmax : fin V (Proc.devRef .tc main_v70)
    = logSoftmaxOf (agg16 (V (Proc.devRef .tc main_v53)) (V (Proc.devRef .tc main_v3)) (V (Proc.devRef .tc main_v6))
        (V (Proc.devRef .tc main_v34)) (V (Proc.devRef .tc main_arg6))) := by
  after_results_simp
  simp only [Cert.LibCallBuf.ofBuf_toBuf]
  rfl

end Stretches

/-! ## The whole program -/

variable (D1 : DotDims S100000x512 S512x64 S100000x64) (hD1 : Cert.LibDot.IsPlain (M := 100000) (K := 512) (N := 64) D1)
variable (D2 : DotDims S100000x64 S64x16 S100000x16) (hD2 : Cert.LibDot.IsPlain (M := 100000) (K := 64) (N := 16) D2)

variable (m : (ℓ : Loc nD τ sig) → Buf (Elt Ideal) ℓ) (ρ : Dev nD → PrngReg)

include hD1 hD2 in
/-- The last boundary's contents at the result buffer are the network of the launch contents of the arguments. -/
theorem value (c : Dev nD) :
    W11 m ρ c (Proc.devRef .tc main_v70)
      = net (F := Ideal) D1 D2 (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) := by
  -- region 0's entry: the prefix, from the launch contents
  have a0 : V5 m ρ c main_arg0 = m ((c.tc : Thread nD τ).loc main_arg0) := pre_keep_main_arg0 (W0 m ρ c)
  have a3 : V5 m ρ c main_arg3 = m ((c.tc : Thread nD τ).loc main_arg3) := pre_keep_main_arg3 (W0 m ρ c)
  have a4 : W5 m ρ c (Proc.devRef .tc main_arg4) = m ((c.tc : Thread nD τ).loc main_arg4) := pre_keep_main_arg4 (W0 m ρ c)
  have a5 : W5 m ρ c (Proc.devRef .tc main_arg5) = m ((c.tc : Thread nD τ).loc main_arg5) := pre_keep_main_arg5 (W0 m ρ c)
  have a6 : W5 m ρ c (Proc.devRef .tc main_arg6) = m ((c.tc : Thread nD τ).loc main_arg6) := pre_keep_main_arg6 (W0 m ρ c)
  have s3 : W5 m ρ c (Proc.devRef .tc main_v3) = srcOf (m ((c.tc : Thread nD τ).loc main_arg1)) := pre_src (W0 m ρ c)
  have s6 : W5 m ρ c (Proc.devRef .tc main_v6) = dstOf (m ((c.tc : Thread nD τ).loc main_arg1)) := pre_dst (W0 m ρ c)
  have s34 : W5 m ρ c (Proc.devRef .tc main_v34)
      = normOf (m ((c.tc : Thread nD τ).loc main_arg1)) (m ((c.tc : Thread nD τ).loc main_arg2)) := pre_norm (W0 m ρ c)
  -- region 0's exit
  have p35 : W6 m ρ c (Proc.devRef .tc main_v35)
      = Host.dotGeneral (F := Ideal) (φ₁ := .f32) (φ₂ := .f32) D1 none (m ((c.tc : Thread nD τ).loc main_arg0)) (m ((c.tc : Thread nD τ).loc main_arg3)) := by
    have h := (W6_arr m ρ c 2).trans (Cert.Gcn.Tile0.whole (V5 m ρ) D1 hD1 c)
    rw [a0, a3] at h
    exact h
  have b3 : W6 m ρ c (Proc.devRef .tc main_v3) = _ := (W6_of_ne m ρ c main_v3 (by decide)).trans s3
  have b6 : W6 m ρ c (Proc.devRef .tc main_v6) = _ := (W6_of_ne m ρ c main_v6 (by decide)).trans s6
  have b34 : W6 m ρ c (Proc.devRef .tc main_v34) = _ := (W6_of_ne m ρ c main_v34 (by decide)).trans s34
  have b4 : W6 m ρ c (Proc.devRef .tc main_arg4) = _ := (W6_of_ne m ρ c main_arg4 (by decide)).trans a4
  have b5 : W6 m ρ c (Proc.devRef .tc main_arg5) = _ := (W6_of_ne m ρ c main_arg5 (by decide)).trans a5
  have b6' : W6 m ρ c (Proc.devRef .tc main_arg6) = _ := (W6_of_ne m ρ c main_arg6 (by decide)).trans a6
  -- region 1's entry: the stretch between the regions
  have q52 : V8 m ρ c main_v52 = _ := (mid_relu (W6 m ρ c)).trans (by rw [p35, b3, b6, b34, b4])
  have q5 : V8 m ρ c main_arg5 = _ := (mid_keep_main_arg5 (W6 m ρ c)).trans b5
  have q3 : W8 m ρ c (Proc.devRef .tc main_v3) = _ := (mid_keep_main_v3 (W6 m ρ c)).trans b3
  have q6 : W8 m ρ c (Proc.devRef .tc main_v6) = _ := (mid_keep_main_v6 (W6 m ρ c)).trans b6
  have q34 : W8 m ρ c (Proc.devRef .tc main_v34) = _ := (mid_keep_main_v34 (W6 m ρ c)).trans b34
  have q6' : W8 m ρ c (Proc.devRef .tc main_arg6) = _ := (mid_keep_main_arg6 (W6 m ρ c)).trans b6'
  -- region 1's exit
  have r53 := (W9_arr m ρ c 2).trans (Cert.Gcn.Tile1.whole (V8 m ρ) D2 hD2 c)
  rw [q52, q5] at r53
  have r3 : W9 m ρ c (Proc.devRef .tc main_v3) = _ := (W9_of_ne m ρ c main_v3 (by decide)).trans q3
  have r6 : W9 m ρ c (Proc.devRef .tc main_v6) = _ := (W9_of_ne m ρ c main_v6 (by decide)).trans q6
  have r34 : W9 m ρ c (Proc.devRef .tc main_v34) = _ := (W9_of_ne m ρ c main_v34 (by decide)).trans q34
  have r6' : W9 m ρ c (Proc.devRef .tc main_arg6) = _ := (W9_of_ne m ρ c main_arg6 (by decide)).trans q6'
  -- the last stretch
  exact (fin_logSoftmax (W9 m ρ c)).trans (by rw [r53, r3, r6, r34, r6']; rfl)

end Cert.Gcn.KHost

end
-- ==== Proof.RHost.lean ====
/-
  The reference program read the same way as the kernel program: its 107 host operations are, in order, the lines
  before the first matrix product, the product, the first layer's lines, the second product, and the second layer's
  lines; each stretch is the same stage function of the arrays it consumes as in the kernel program, and each product
  is the host's general dot product of the node features (or of the first layer's output) with a weight matrix.
  So the reference's result is the same network of its seven arguments.
-/
import proofs.«160135_j52123723104303_1_alg».proof.Proof.RefRun
import proofs.«160135_j52123723104303_1_alg».proof.Proof.Stages
import proofs.«160135_j52123723104303_1_alg».proof.Proof.Net
import proofs.«160135_j52123723104303_1_alg».proof.Proof.LibCallBuf
import Idealize.ShloMosaic.Lib.StableHlo.Run
import Idealize.ShloMosaic.PureOps.Ideal

set_option maxRecDepth 16384

noncomputable section

namespace Cert.Gcn.RHost

open Idealize.ShloMosaic Idealize.ShloMosaic.TcCoe Idealize.ShloMosaic.StableHlo Idealize.SL.Sem
open Cert.ReferenceIdeal Cert.ReferenceIdeal.Gen Cert.ReferenceIdeal.ValueP Cert.Gcn

/-- The contents after two lines of operations run one after the other are the contents after the second from the
    contents after the first. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => exact ih _

section Stretches

variable {F : FTy → Type} [FloatOps F]

/-- The 21 lines that build the source and destination lists, the weights, the degree and its sign. -/
abbrev rA0 : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S100000 ![] bcast_S_S100000 : (⟨S_, .f32⟩ : BufTy).Contents (Elt F) → (⟨S100000, .f32⟩ : BufTy).Contents (Elt F)),
    binary main_arg2 main_v7 main_v8 ((fun a b => concatenate S1700000 0 [⟨S1600000, a⟩, ⟨S100000, b⟩] concatenates_S1600000_S100000_S1700000_d0) : (⟨S1600000, .f32⟩ : BufTy).Contents (Elt F) → (⟨S100000, .f32⟩ : BufTy).Contents (Elt F) → (⟨S1700000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v6 main_v10 (broadcastInDim S1700000x1 ![0] bcast_S1700000_S1700000x1_0 : (⟨S1700000, .i32⟩ : BufTy).Contents (Elt F) → (⟨S1700000x1, .i32⟩ : BufTy).Contents (Elt F)),
    ternary main_v9 main_v10 main_v8 main_v11 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf .ogt : (⟨S100000, .f32⟩ : BufTy).Contents (Elt F) → (⟨S100000, .f32⟩ : BufTy).Contents (Elt F) → (⟨S100000, .i1⟩ : BufTy).Contents (Elt F)),
    nullary main_cst_2 (constant S_ .f32 0x00000000#32),
    unary main_cst_2 main_v14 (broadcastInDim S100000 ![] bcast_S_S100000 : (⟨S_, .f32⟩ : BufTy).Contents (Elt F) → (⟨S100000, .f32⟩ : BufTy).Contents (Elt F)),
    binary main_v11 main_v14 main_v15 (cmpf .ogt : (⟨S100000, .f32⟩ : BufTy).Contents (Elt F) → (⟨S100000, .f32⟩ : BufTy).Contents (Elt F) → (⟨S100000, .i1⟩ : BufTy).Contents (Elt F)),
    nullary main_cst_3 (constant S_ .f32 0x3F800000#32) ]

/-- The 3 lines of the first `where` (the degree, or one where it is not positive). -/
abbrev rA1 : List (HloOp τ sig (Elt F)) :=
  [ TRef.unary (TRef.of (T := ⟨S_, .f32⟩) main_cst_3) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v15) (TRef.of (T := ⟨S100000, .f32⟩) main_v11) (TRef.of (T := ⟨S100000, .f32⟩) main_call0_v1) (TRef.of (T := ⟨S100000, .f32⟩) main_v16) select ]

/-- The reciprocal square root, and a zero. -/
abbrev rA2 : List (HloOp τ sig (Elt F)) :=
  [ unary main_v16 main_v17 (Host.rsqrt : (⟨S100000, .f32⟩ : BufTy).Contents (Elt F) → (⟨S100000, .f32⟩ : BufTy).Contents (Elt F)),
    nullary main_cst_4 (constant S_ .f32 0x00000000#32) ]

/-- The 3 lines of the second `where` (the node scale). -/
abbrev rA3 : List (HloOp τ sig (Elt F)) :=
  [ TRef.unary (TRef.of (T := ⟨S_, .f32⟩) main_cst_4) (TRef.of (T := ⟨S_, .f32⟩) main_call1_v0) id,
    TRef.unary (TRef.of (T := ⟨S_, .f32⟩) main_call1_v0) (TRef.of (T := ⟨S100000, .f32⟩) main_call1_v1) (broadcastInDim S100000 ![] bcast_S_S100000),
    TRef.ternary (TRef.of (T := ⟨S100000, .i1⟩) main_v13) (TRef.of (T := ⟨S100000, .f32⟩) main_v17) (TRef.of (T := ⟨S100000, .f32⟩) main_call1_v1) (TRef.of (T := ⟨S100000, .f32⟩) main_v18) select ]

/-- The 20 lines that look the scale up at both ends of every edge and form the coefficients. -/
abbrev rA4 : List (HloOp τ sig (Elt F)) :=
  [ nullary main_c (constantI S_ 32 0#32),
    unary main_c main_v19 (broadcastInDim S1700000 ![] bcast_S_S1700000 : (⟨S_, .i32⟩ : BufTy).Contents (Elt F) → (⟨S1700000, .i32⟩ : BufTy).Contents (Elt F)),
    binary main_v3 main_v19 main_v20 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v21 (broadcastInDim S1700000 ![] bcast_S_S1700000 : (⟨S_, .i32⟩ : BufTy).Contents (Elt F) → (⟨S1700000, .i32⟩ : BufTy).Contents (Elt F)),
    binary main_v3 main_v21 main_v22 (addi : (⟨S1700000, .i32⟩ : BufTy).Contents (Elt F) → (⟨S1700000, .i32⟩ : BufTy).Contents (Elt F) → (⟨S1700000, .i32⟩ : BufTy).Contents (Elt F)),
    ternary main_v20 main_v22 main_v3 main_v23 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v23 main_v24 (broadcastInDim S1700000x1 ![0] bcast_S1700000_S1700000x1_0 : (⟨S1700000, .i32⟩ : BufTy).Contents (Elt F) → (⟨S1700000x1, .i32⟩ : BufTy).Contents (Elt F)),
    binary main_v18 main_v24 main_v25 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v25 main_v8 main_v26 (mulf : (⟨S1700000, .f32⟩ : BufTy).Contents (Elt F) → (⟨S1700000, .f32⟩ : BufTy).Contents (Elt F) → (⟨S1700000, .f32⟩ : BufTy).Contents (Elt F)),
    nullary main_c_6 (constantI S_ 32 0#32),
    unary main_c_6 main_v27 (broadcastInDim S1700000 ![] bcast_S_S1700000 : (⟨S_, .i32⟩ : BufTy).Contents (Elt F) → (⟨S1700000, .i32⟩ : BufTy).Contents (Elt F)),
    binary main_v6 main_v27 main_v28 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v29 (broadcastInDim S1700000 ![] bcast_S_S1700000 : (⟨S_, .i32⟩ : BufTy).Contents (Elt F) → (⟨S1700000, .i32⟩ : BufTy).Contents (Elt F)),
    binary main_v6 main_v29 main_v30 (addi : (⟨S1700000, .i32⟩ : BufTy).Contents (Elt F) → (⟨S1700000, .i32⟩ : BufTy).Contents (Elt F) → (⟨S1700000, .i32⟩ : BufTy).Contents (Elt F)),
    ternary main_v28 main_v30 main_v6 main_v31 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v31 main_v32 (broadcastInDim S1700000x1 ![0] bcast_S1700000_S1700000x1_0 : (⟨S1700000, .i32⟩ : BufTy).Contents (Elt F) → (⟨S1700000x1, .i32⟩ : BufTy).Contents (Elt F)),
    binary main_v18 main_v32 main_v33 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v26 main_v33 main_v34 (mulf : (⟨S1700000, .f32⟩ : BufTy).Contents (Elt F) → (⟨S1700000, .f32⟩ : BufTy).Contents (Elt F) → (⟨S1700000, .f32⟩ : BufTy).Contents (Elt F)) ]

/-- The 19 lines of the first layer's aggregation. -/
abbrev rB0 : List (HloOp τ sig (Elt F)) :=
  [ nullary main_c_8 (constantI S_ 32 0#32),
    unary main_c_8 main_v36 (broadcastInDim S1700000 ![] bcast_S_S1700000 : (⟨S_, .i32⟩ : BufTy).Contents (Elt F) → (⟨S1700000, .i32⟩ : BufTy).Contents (Elt F)),
    binary main_v3 main_v36 main_v37 (cmpi .slt : (⟨S1700000, .i32⟩ : BufTy).Contents (Elt F) → (⟨S1700000, .i32⟩ : BufTy).Contents (Elt F) → (⟨S1700000, .i1⟩ : BufTy).Contents (Elt F)),
    nullary main_c_9 (constantI S_ 32 100000#32),
    unary main_c_9 main_v38 (broadcastInDim S1700000 ![] bcast_S_S1700000 : (⟨S_, .i32⟩ : BufTy).Contents (Elt F) → (⟨S1700000, .i32⟩ : BufTy).Contents (Elt F)),
    binary main_v3 main_v38 main_v39 (addi : (⟨S1700000, .i32⟩ : BufTy).Contents (Elt F) → (⟨S1700000, .i32⟩ : BufTy).Contents (Elt F) → (⟨S1700000, .i32⟩ : BufTy).Contents (Elt F)),
    ternary main_v37 main_v39 main_v3 main_v40 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v40 main_v41 (broadcastInDim S1700000x1 ![0] bcast_S1700000_S1700000x1_0 : (⟨S1700000, .i32⟩ : BufTy).Contents (Elt F) → (⟨S1700000x1, .i32⟩ : BufTy).Contents (Elt F)),
    binary main_v35 main_v41 main_v42 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v34 main_v43 (broadcastInDim S1700000x1 ![0] bcast_S1700000_S1700000x1_0 : (⟨S1700000, .f32⟩ : BufTy).Contents (Elt F) → (⟨S1700000x1, .f32⟩ : BufTy).Contents (Elt F)),
    unary main_v43 main_v44 (broadcastInDim S1700000x64 ![0, 1] bcast_S1700000x1_S1700000x64_0_1 : (⟨S1700000x1, .f32⟩ : BufTy).Contents (Elt F) → (⟨S1700000x64, .f32⟩ : BufTy).Contents (Elt F)),
    binary main_v42 main_v44 main_v45 (mulf : (⟨S1700000x64, .f32⟩ : BufTy).Contents (Elt F) → (⟨S1700000x64, .f32⟩ : BufTy).Contents (Elt F) → (⟨S1700000x64, .f32⟩ : BufTy).Contents (Elt F)),
    nullary main_cst_10 (constant S_ .f32 0x00000000#32),
    unary main_cst_10 main_v46 (broadcastInDim S100000x64 ![] bcast_S_S100000x64 : (⟨S_, .f32⟩ : BufTy).Contents (Elt F) → (⟨S100000x64, .f32⟩ : BufTy).Contents (Elt F)),
    unary main_v6 main_v47 (broadcastInDim S1700000x1 ![0] bcast_S1700000_S1700000x1_0 : (⟨S1700000, .i32⟩ : BufTy).Contents (Elt F) → (⟨S1700000x1, .i32⟩ : BufTy).Contents (Elt F)),
    ternary main_v46 main_v47 main_v45 main_v48 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg4 main_v49 (broadcastInDim S1x64 ![1] bcast_S64_S1x64_1 : (⟨S64, .f32⟩ : BufTy).Contents (Elt F) → (⟨S1x64, .f32⟩ : BufTy).Contents (Elt F)),
    unary main_v49 main_v50 (broadcastInDim S100000x64 ![0, 1] bcast_S1x64_S100000x64_0_1 : (⟨S1x64, .f32⟩ : BufTy).Contents (Elt F) → (⟨S100000x64, .f32⟩ : BufTy).Contents (Elt F)),
    binary main_v48 main_v50 main_v51 (addf : (⟨S100000x64, .f32⟩ : BufTy).Contents (Elt F) → (⟨S100000x64, .f32⟩ : BufTy).Contents (Elt F) → (⟨S100000x64, .f32⟩ : BufTy).Contents (Elt F)) ]

/-- The 3 lines of the maximum with zero. -/
abbrev rB1 : List (HloOp τ sig (Elt F)) :=
  [ TRef.nullary (TRef.of (T := ⟨S_, .f32⟩) main_call2_cst) (constant S_ .f32 0x00000000#32),
    TRef.unary (TRef.of (T := ⟨S_, .f32⟩) main_call2_cst) (TRef.of (T := ⟨S100000x64, .f32⟩) main_call2_v0) (broadcastInDim S100000x64 ![] bcast_S_S100000x64),
    TRef.binary (TRef.of (T := ⟨S100000x64, .f32⟩) main_v51) (TRef.of (T := ⟨S100000x64, .f32⟩) main_call2_v0) (TRef.of (T := ⟨S100000x64, .f32⟩) main_v52) maximumf ]

/-- The 19 lines of the second layer's aggregation. -/
abbrev rC0 : List (HloOp τ sig (Elt F)) :=
  [ nullary main_c_11 (constantI S_ 32 0#32),
    unary main_c_11 main_v54 (broadcastInDim S1700000 ![] bcast_S_S1700000 : (⟨S_, .i32⟩ : BufTy).Contents (Elt F) → (⟨S1700000, .i32⟩ : BufTy).Contents (Elt F)),
    binary main_v3 main_v54 main_v55 (cmpi .slt : (⟨S1700000, .i32⟩ : BufTy).Contents (Elt F) → (⟨S1700000, .i32⟩ : BufTy).Contents (Elt F) → (⟨S1700000, .i1⟩ : BufTy).Contents (Elt F)),
    nullary main_c_12 (constantI S_ 32 100000#32),
    unary main_c_12 main_v56 (broadcastInDim S1700000 ![] bcast_S_S1700000 : (⟨S_, .i32⟩ : BufTy).Contents (Elt F) → (⟨S1700000, .i32⟩ : BufTy).Contents (Elt F)),
    binary main_v3 main_v56 main_v57 (addi : (⟨S1700000, .i32⟩ : BufTy).Contents (Elt F) → (⟨S1700000, .i32⟩ : BufTy).Contents (Elt F) → (⟨S1700000, .i32⟩ : BufTy).Contents (Elt F)),
    ternary main_v55 main_v57 main_v3 main_v58 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v58 main_v59 (broadcastInDim S1700000x1 ![0] bcast_S1700000_S1700000x1_0 : (⟨S1700000, .i32⟩ : BufTy).Contents (Elt F) → (⟨S1700000x1, .i32⟩ : BufTy).Contents (Elt F)),
    binary main_v53 main_v59 main_v60 ((fun x i => Host.gather gather_S100000x16_S1700000x1_S1700000x16_1_0_n_n_0_1_116 x i) : (⟨S100000x16, .f32⟩ : BufTy).Contents (Elt F) → (⟨S1700000x1, .i32⟩ : BufTy).Contents (Elt F) → (⟨S1700000x16, .f32⟩ : BufTy).Contents (Elt F)),
    unary main_v34 main_v61 (broadcastInDim S1700000x1 ![0] bcast_S1700000_S1700000x1_0 : (⟨S1700000, .f32⟩ : BufTy).Contents (Elt F) → (⟨S1700000x1, .f32⟩ : BufTy).Contents (Elt F)),
    unary main_v61 main_v62 (broadcastInDim S1700000x16 ![0, 1] bcast_S1700000x1_S1700000x16_0_1 : (⟨S1700000x1, .f32⟩ : BufTy).Contents (Elt F) → (⟨S1700000x16, .f32⟩ : BufTy).Contents (Elt F)),
    binary main_v60 main_v62 main_v63 (mulf : (⟨S1700000x16, .f32⟩ : BufTy).Contents (Elt F) → (⟨S1700000x16, .f32⟩ : BufTy).Contents (Elt F) → (⟨S1700000x16, .f32⟩ : BufTy).Contents (Elt F)),
    nullary main_cst_13 (constant S_ .f32 0x00000000#32),
    unary main_cst_13 main_v64 (broadcastInDim S100000x16 ![] bcast_S_S100000x16 : (⟨S_, .f32⟩ : BufTy).Contents (Elt F) → (⟨S100000x16, .f32⟩ : BufTy).Contents (Elt F)),
    unary main_v6 main_v65 (broadcastInDim S1700000x1 ![0] bcast_S1700000_S1700000x1_0 : (⟨S1700000, .i32⟩ : BufTy).Contents (Elt F) → (⟨S1700000x1, .i32⟩ : BufTy).Contents (Elt F)),
    ternary main_v64 main_v65 main_v63 main_v66 ((fun x i u => Host.scatterAdd scatter_S100000x16_S1700000x1_S1700000x16_1_0_0_1 x i u) : (⟨S100000x16, .f32⟩ : BufTy).Contents (Elt F) → (⟨S1700000x1, .i32⟩ : BufTy).Contents (Elt F) → (⟨S1700000x16, .f32⟩ : BufTy).Contents (Elt F) → (⟨S100000x16, .f32⟩ : BufTy).Contents (Elt F)),
    unary main_arg6 main_v67 (broadcastInDim S1x16 ![1] bcast_S16_S1x16_1 : (⟨S16, .f32⟩ : BufTy).Contents (Elt F) → (⟨S1x16, .f32⟩ : BufTy).Contents (Elt F)),
    unary main_v67 main_v68 (broadcastInDim S100000x16 ![0, 1] bcast_S1x16_S100000x16_0_1 : (⟨S1x16, .f32⟩ : BufTy).Contents (Elt F) → (⟨S100000x16, .f32⟩ : BufTy).Contents (Elt F)),
    binary main_v66 main_v68 main_v69 (addf : (⟨S100000x16, .f32⟩ : BufTy).Contents (Elt F) → (⟨S100000x16, .f32⟩ : BufTy).Contents (Elt F) → (⟨S100000x16, .f32⟩ : BufTy).Contents (Elt F)) ]

/-- The 15 lines of the log-softmax. -/
abbrev rC1 : List (HloOp τ sig (Elt F)) :=
  [ TRef.nullary (TRef.of (T := ⟨S_, .f32⟩) main_call3_cst) (constant S_ .f32 0xFF800000#32),
    TRef.binary (TRef.of (T := ⟨S100000x16, .f32⟩) main_v69) (TRef.of (T := ⟨S_, .f32⟩) main_call3_cst) (TRef.of (T := ⟨S100000, .f32⟩) main_call3_v0) (fun x v => Host.reduce FloatOps.maximumf x v reducesTo_S100000x16_S100000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf,
    TRef.unary (TRef.of (T := ⟨S100000, .f32⟩) main_call3_v2) (TRef.of (T := ⟨S100000x1, .f32⟩) main_call3_v3) (broadcastInDim S100000x1 ![0] bcast_S100000_S100000x1_0),
    TRef.unary (TRef.of (T := ⟨S100000x1, .f32⟩) main_call3_v3) (TRef.of (T := ⟨S100000x16, .f32⟩) main_call3_v4) (broadcastInDim S100000x16 ![0, 1] bcast_S100000x1_S100000x16_0_1),
    TRef.binary (TRef.of (T := ⟨S100000x16, .f32⟩) main_v69) (TRef.of (T := ⟨S100000x16, .f32⟩) main_call3_v4) (TRef.of (T := ⟨S100000x16, .f32⟩) main_call3_v5) subf,
    TRef.unary (TRef.of (T := ⟨S100000x16, .f32⟩) main_call3_v5) (TRef.of (T := ⟨S100000x16, .f32⟩) main_call3_v6) Host.exp,
    TRef.nullary (TRef.of (T := ⟨S_, .f32⟩) main_call3_cst_1) (constant S_ .f32 0x00000000#32),
    TRef.binary (TRef.of (T := ⟨S100000x16, .f32⟩) main_call3_v6) (TRef.of (T := ⟨S_, .f32⟩) main_call3_cst_1) (TRef.of (T := ⟨S100000, .f32⟩) main_call3_v7) (fun x v => Host.reduceAdd x v reducesTo_S100000x16_S100000_d1 h_S_),
    TRef.unary (TRef.of (T := ⟨S100000, .f32⟩) main_call3_v7) (TRef.of (T := ⟨S100000x1, .f32⟩) main_call3_v8) (broadcastInDim S100000x1 ![0] bcast_S100000_S100000x1_0),
    TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x16, .f32⟩) main_call3_v10) (broadcastInDim S100000x16 ![0, 1] bcast_S100000x1_S100000x16_0_1),
    TRef.binary (TRef.of (T := ⟨S100000x16, .f32⟩) main_call3_v5) (TRef.of (T := ⟨S100000x16, .f32⟩) main_call3_v10) (TRef.of (T := ⟨S100000x16, .f32⟩) main_v70) subf ]

/-- The first matrix product: the node features times the first weight matrix. -/
abbrev rD1 : HloOp τ sig (Elt F) := binary main_arg0 main_arg3 main_v35 ((fun l r => Host.dotGeneral dot_S100000x512_S512x64_S100000x64_1_0_0_1_n_n none l r) : (⟨S100000x512, .f32⟩ : BufTy).Contents (Elt F) → (⟨S512x64, .f32⟩ : BufTy).Contents (Elt F) → (⟨S100000x64, .f32⟩ : BufTy).Contents (Elt F))
/-- The second matrix product: the first layer's output times the second weight matrix. -/
abbrev rD2 : HloOp τ sig (Elt F) := binary main_v52 main_arg5 main_v53 ((fun l r => Host.dotGeneral dot_S100000x64_S64x16_S100000x16_1_0_0_1_n_n none l r) : (⟨S100000x64, .f32⟩ : BufTy).Contents (Elt F) → (⟨S64x16, .f32⟩ : BufTy).Contents (Elt F) → (⟨S100000x16, .f32⟩ : BufTy).Contents (Elt F))

/-- The program's operations are these stretches in order. -/
theorem ops_split : (ops : List (HloOp τ sig (Elt F)))
    = rA0 ++ (rA1 ++ (rA2 ++ (rA3 ++ (rA4 ++ ([rD1] ++ (rB0 ++ (rB1 ++ ([rD2] ++ (rC0 ++ rC1))))))))) := rfl

variable (V : Valuation τ sig (Elt F))

/-- The contents after the lines before the first product. -/
abbrev pre : Valuation τ sig (Elt F) := after rA4 (after rA3 (after rA2 (after rA1 (after rA0 V))))
/-- The contents after the first layer's lines. -/
abbrev mid : Valuation τ sig (Elt F) := after rB1 (after rB0 V)
/-- The contents after the second layer's lines. -/
abbrev fin : Valuation τ sig (Elt F) := after rC1 (after rC0 V)

theorem pre_src : pre V (Proc.devRef .tc main_v3) = srcOf (V (Proc.devRef .tc main_arg1)) := by
  after_results_simp <;> rfl
theorem pre_dst : pre V (Proc.devRef .tc main_v6) = dstOf (V (Proc.devRef .tc main_arg1)) := by
  after_results_simp <;> rfl
theorem pre_norm : pre V (Proc.devRef .tc main_v34)
    = normOf (V (Proc.devRef .tc main_arg1)) (V (Proc.devRef .tc main_arg2)) := by
  after_results_simp
  simp only [Cert.LibCallBuf.ofBuf_toBuf]
  rfl
theorem pre_keep_main_arg0 : pre V (Proc.devRef .tc main_arg0) = V (Proc.devRef .tc main_arg0) := by
  after_results_simp <;> rfl
theorem pre_keep_main_arg3 : pre V (Proc.devRef .tc main_arg3) = V (Proc.devRef .tc main_arg3) := by
  after_results_simp <;> rfl
theorem pre_keep_main_arg4 : pre V (Proc.devRef .tc main_arg4) = V (Proc.devRef .tc main_arg4) := by
  after_results_simp <;> rfl
theorem pre_keep_main_arg5 : pre V (Proc.devRef .tc main_arg5) = V (Proc.devRef .tc main_arg5) := by
  after_results_simp <;> rfl
theorem pre_keep_main_arg6 : pre V (Proc.devRef .tc main_arg6) = V (Proc.devRef .tc main_arg6) := by
  after_results_simp <;> rfl

theorem mid_relu : mid V (Proc.devRef .tc main_v52)
    = reluOf (agg64 (V (Proc.devRef .tc main_v35)) (V (Proc.devRef .tc main_v3)) (V (Proc.devRef .tc main_v6))
        (V (Proc.devRef .tc main_v34)) (V (Proc.devRef .tc main_arg4))) := by
  after_results_simp
  simp only [Cert.LibCallBuf.ofBuf_toBuf]
  rfl
theorem mid_keep_main_v3 : mid V (Proc.devRef .tc main_v3) = V (Proc.devRef .tc main_v3) := by
  after_results_simp <;> rfl
theorem mid_keep_main_v6 : mid V (Proc.devRef .tc main_v6) = V (Proc.devRef .tc main_v6) := by
  after_results_simp <;> rfl
theorem mid_keep_main_v34 : mid V (Proc.devRef .tc main_v34) = V (Proc.devRef .tc main_v34) := by
  after_results_simp <;> rfl
theorem mid_keep_main_arg5 : mid V (Proc.devRef .tc main_arg5) = V (Proc.devRef .tc main_arg5) := by
  after_results_simp <;> rfl
theorem mid_keep_main_arg6 : mid V (Proc.devRef .tc main_arg6) = V (Proc.devRef .tc main_arg6) := by
  after_results_simp <;> rfl

theorem fin_logSoftmax : fin V (Proc.devRef .tc main_v70)
    = logSoftmaxOf (agg16 (V (Proc.devRef .tc main_v53)) (V (Proc.devRef .tc main_v3)) (V (Proc.devRef .tc main_v6))
        (V (Proc.devRef .tc main_v34)) (V (Proc.devRef .tc main_arg6))) := by
  after_results_simp
  simp only [Cert.LibCallBuf.ofBuf_toBuf]
  rfl

/-- The first product's line writes the product and keeps every other buffer. -/
theorem d1_v35 : after [rD1] V (Proc.devRef .tc main_v35)
    = Host.dotGeneral dot_S100000x512_S512x64_S100000x64_1_0_0_1_n_n none (V (Proc.devRef .tc main_arg0)) (V (Proc.devRef .tc main_arg3)) := by
  after_results_simp <;> rfl
theorem d1_keep_main_v3 : after [rD1] V (Proc.devRef .tc main_v3) = V (Proc.devRef .tc main_v3) := by
  after_results_simp <;> rfl
theorem d1_keep_main_v6 : after [rD1] V (Proc.devRef .tc main_v6) = V (Proc.devRef .tc main_v6) := by
  after_results_simp <;> rfl
theorem d1_keep_main_v34 : after [rD1] V (Proc.devRef .tc main_v34) = V (Proc.devRef .tc main_v34) := by
  after_results_simp <;> rfl
theorem d1_keep_main_arg4 : after [rD1] V (Proc.devRef .tc main_arg4) = V (Proc.devRef .tc main_arg4) := by
  after_results_simp <;> rfl
theorem d1_keep_main_arg5 : after [rD1] V (Proc.devRef .tc main_arg5) = V (Proc.devRef .tc main_arg5) := by
  after_results_simp <;> rfl
theorem d1_keep_main_arg6 : after [rD1] V (Proc.devRef .tc main_arg6) = V (Proc.devRef .tc main_arg6) := by
  after_results_simp <;> rfl

/-- The second product's line writes the product and keeps every other buffer. -/
theorem d2_v53 : after [rD2] V (Proc.devRef .tc main_v53)
    = Host.dotGeneral dot_S100000x64_S64x16_S100000x16_1_0_0_1_n_n none (V (Proc.devRef .tc main_v52)) (V (Proc.devRef .tc main_arg5)) := by
  after_results_simp <;> rfl
theorem d2_keep_main_v3 : after [rD2] V (Proc.devRef .tc main_v3) = V (Proc.devRef .tc main_v3) := by
  after_results_simp <;> rfl
theorem d2_keep_main_v6 : after [rD2] V (Proc.devRef .tc main_v6) = V (Proc.devRef .tc main_v6) := by
  after_results_simp <;> rfl
theorem d2_keep_main_v34 : after [rD2] V (Proc.devRef .tc main_v34) = V (Proc.devRef .tc main_v34) := by
  after_results_simp <;> rfl
theorem d2_keep_main_arg6 : after [rD2] V (Proc.devRef .tc main_arg6) = V (Proc.devRef .tc main_arg6) := by
  after_results_simp <;> rfl

end Stretches

/-! ## The whole program -/

variable (m : (ℓ : Loc nD τ sig) → Buf (Elt Ideal) ℓ)

/-- The fold of the reference's operations over the launch contents, at the result buffer, is the network of the
    launch contents of the arguments. -/
theorem value (c : Dev nD) :
    after (ops (F := Ideal)) (launchContents m c) (Proc.devRef .tc main_v70)
      = net (F := Ideal) dot_S100000x512_S512x64_S100000x64_1_0_0_1_n_n dot_S100000x64_S64x16_S100000x16_1_0_0_1_n_n
          (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) := by
  have hsplit : after (ops (F := Ideal)) (launchContents m c)
      = fin (after [rD2] (mid (after [rD1] (pre (launchContents m c))))) := by
    rw [ops_split]
    repeat rw [after_append]
  rw [hsplit]
  -- the lines before the first product, from the launch contents
  have a0 : pre (launchContents m c) (Proc.devRef .tc main_arg0) = m ((c.tc : Thread nD τ).loc main_arg0) := pre_keep_main_arg0 _
  have a3 : pre (launchContents m c) (Proc.devRef .tc main_arg3) = m ((c.tc : Thread nD τ).loc main_arg3) := pre_keep_main_arg3 _
  have a4 : pre (launchContents m c) (Proc.devRef .tc main_arg4) = m ((c.tc : Thread nD τ).loc main_arg4) := pre_keep_main_arg4 _
  have a5 : pre (launchContents m c) (Proc.devRef .tc main_arg5) = m ((c.tc : Thread nD τ).loc main_arg5) := pre_keep_main_arg5 _
  have a6 : pre (launchContents m c) (Proc.devRef .tc main_arg6) = m ((c.tc : Thread nD τ).loc main_arg6) := pre_keep_main_arg6 _
  have s3 : pre (launchContents m c) (Proc.devRef .tc main_v3) = srcOf (m ((c.tc : Thread nD τ).loc main_arg1)) := pre_src _
  have s6 : pre (launchContents m c) (Proc.devRef .tc main_v6) = dstOf (m ((c.tc : Thread nD τ).loc main_arg1)) := pre_dst _
  have s34 : pre (launchContents m c) (Proc.devRef .tc main_v34)
      = normOf (m ((c.tc : Thread nD τ).loc main_arg1)) (m ((c.tc : Thread nD τ).loc main_arg2)) := pre_norm _
  -- the first product
  have p35 := (d1_v35 (pre (launchContents m c))).trans (by rw [a0, a3])
  have b3 := (d1_keep_main_v3 (pre (launchContents m c))).trans s3
  have b6 := (d1_keep_main_v6 (pre (launchContents m c))).trans s6
  have b34 := (d1_keep_main_v34 (pre (launchContents m c))).trans s34
  have b4 := (d1_keep_main_arg4 (pre (launchContents m c))).trans a4
  have b5 := (d1_keep_main_arg5 (pre (launchContents m c))).trans a5
  have b6' := (d1_keep_main_arg6 (pre (launchContents m c))).trans a6
  -- the first layer
  have q52 := (mid_relu (after [rD1] (pre (launchContents m c)))).trans (by rw [p35, b3, b6, b34, b4])
  have q5 := (mid_keep_main_arg5 (after [rD1] (pre (launchContents m c)))).trans b5
  have q3 := (mid_keep_main_v3 (after [rD1] (pre (launchContents m c)))).trans b3
  have q6 := (mid_keep_main_v6 (after [rD1] (pre (launchContents m c)))).trans b6
  have q34 := (mid_keep_main_v34 (after [rD1] (pre (launchContents m c)))).trans b34
  have q6' := (mid_keep_main_arg6 (after [rD1] (pre (launchContents m c)))).trans b6'
  -- the second product
  have r53 := (d2_v53 (mid (after [rD1] (pre (launchContents m c))))).trans (by rw [q52, q5])
  have r3 := (d2_keep_main_v3 (mid (after [rD1] (pre (launchContents m c))))).trans q3
  have r6 := (d2_keep_main_v6 (mid (after [rD1] (pre (launchContents m c))))).trans q6
  have r34 := (d2_keep_main_v34 (mid (after [rD1] (pre (launchContents m c))))).trans q34
  have r6' := (d2_keep_main_arg6 (mid (after [rD1] (pre (launchContents m c))))).trans q6'
  -- the second layer
  exact (fin_logSoftmax (after [rD2] (mid (after [rD1] (pre (launchContents m c)))))).trans (by rw [r53, r3, r6, r34, r6']; rfl)

end Cert.Gcn.RHost

end
-- ==== Proof.lean ====
/-
  A two-layer graph convolution with a log-softmax head, over 100000 nodes and 1600000 weighted edges: the kernel
  program computes each layer's matrix product fifty row tiles at a time on the matrix unit, with operands narrowed
  to a shorter float format, and everything else on the host; the reference computes the two products as whole host
  dot products and the same host lines around them. Over the extended reals the narrowing is the identity and a row
  tile of a product is the same rows of the whole product, so both programs compute one function of their arguments:
  the network of Proof/Net.lean.
  The three frames: the kernel program's two (at the word level and idealized) are the several-region launch over the
  generated segments; the reference's is its run with the result dropped. The idealization rewrote nothing, so what
  it preserves is trivial. The equivalence: both runs end with the result buffer at the network of the launch
  contents of the arguments (Proof/KRun.lean and Proof/KHost.lean for the kernel program, Proof/RefRun.lean and
  Proof/RHost.lean for the reference), and the arguments agree.
-/
import proofs.«160135_j52123723104303_1_alg».proof.Defs
import proofs.«160135_j52123723104303_1_alg».proof.Proof.Gen.Kernel
import proofs.«160135_j52123723104303_1_alg».proof.Proof.Gen.Kernel.Skeleton
import proofs.«160135_j52123723104303_1_alg».proof.Proof.Gen.Kernel.Launch
import proofs.«160135_j52123723104303_1_alg».proof.Proof.Gen.Kernel.Points
import proofs.«160135_j52123723104303_1_alg».proof.Proof.Gen.Kernel.Frame
import proofs.«160135_j52123723104303_1_alg».proof.Proof.Gen.KernelIdeal
import proofs.«160135_j52123723104303_1_alg».proof.Proof.Gen.KernelIdeal.Skeleton
import proofs.«160135_j52123723104303_1_alg».proof.Proof.Gen.KernelIdeal.Launch
import proofs.«160135_j52123723104303_1_alg».proof.Proof.Gen.KernelIdeal.Points
import proofs.«160135_j52123723104303_1_alg».proof.Proof.Gen.KernelIdeal.Frame
import proofs.«160135_j52123723104303_1_alg».proof.Proof.Gen.ReferenceIdeal
import proofs.«160135_j52123723104303_1_alg».proof.Proof.Gen.Pre_finite_inputs
import proofs.«160135_j52123723104303_1_alg».proof.Proof.KRun
import proofs.«160135_j52123723104303_1_alg».proof.Proof.KHost
import proofs.«160135_j52123723104303_1_alg».proof.Proof.RefRun
import proofs.«160135_j52123723104303_1_alg».proof.Proof.RHost
import Idealize.ShloMosaic.Adequacy
import Idealize.ShloMosaic.Init

noncomputable section

namespace Cert.Proof

open Idealize.ShloMosaic Idealize.SL.Sem

/-- The reference's dimension numbers for the first product contract the left columns against the right rows. -/
theorem plain1 : Cert.LibDot.IsPlain (M := 100000) (K := 512) (N := 64)
    Cert.ReferenceIdeal.dot_S100000x512_S512x64_S100000x64_1_0_0_1_n_n := ⟨rfl, rfl, rfl, rfl, rfl, rfl⟩
/-- And so do those for the second. -/
theorem plain2 : Cert.LibDot.IsPlain (M := 100000) (K := 64) (N := 16)
    Cert.ReferenceIdeal.dot_S100000x64_S64x16_S100000x16_1_0_0_1_n_n := ⟨rfl, rfl, rfl, rfl, rfl, rfl⟩

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- Both idealized programs end with the result buffer at the network of the arguments' launch contents. -/
theorem algebraic : Cert.algebraic_KernelIdeal_ReferenceIdeal := by
  intro m ρ m' ρ' _ hagree
  refine ⟨fun c => Cert.Gcn.net (F := Ideal)
      Cert.ReferenceIdeal.dot_S100000x512_S512x64_S100000x64_1_0_0_1_n_n Cert.ReferenceIdeal.dot_S100000x64_S64x16_S100000x16_1_0_0_1_n_n
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.Gcn.KHost.value _ plain1 _ plain2 m ρ c), (h c).2⟩)
      (Cert.Gcn.KRun.run (F := Ideal) m ρ)
  · refine (θ_run Cert.ReferenceIdeal.defs _ _).mono (fun _ h c => ⟨(h c).1.trans ?_, (h c).2⟩)
      (Cert.ReferenceIdeal.ValueP.run (F := Ideal) m' ρ')
    obtain ⟨e0, e1, e2, e3, e4, e5, e6⟩ := hagree c
    rw [Cert.Gcn.RHost.value m' c, e0, e1, e2, e3, e4, e5, e6]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
